-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S800000 : Shape := ⟨1, ![800000]⟩
abbrev S100000x128 : Shape := ⟨2, ![100000, 128]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg7 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg7
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : IVec S50000x32 32) (main_arg1 : IVec S800000 32) (main_arg2 : IVec S800000 32) (main_arg3 : FVec F S100000x128 .f32) (main_arg4 : FVec F S256x256 .f32) (main_arg5 : FVec F S256 .f32) (main_arg6 : FVec F S256x40 .f32) (main_arg7 : FVec F S40 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg6
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg7 main_v13 main_v16
-- ==== Kernel.lean ====
abbrev S50000x32 : Shape := ⟨2, ![50000, 32]⟩
abbrev S800000 : Shape := ⟨1, ![800000]⟩
abbrev S100000x128 : Shape := ⟨2, ![100000, 128]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1 : Shape := ⟨1, ![1]⟩
abbrev S128 : Shape := ⟨1, ![128]⟩
abbrev S50000x32x1 : Shape := ⟨3, ![50000, 32, 1]⟩
abbrev S50000x32x128 : Shape := ⟨3, ![50000, 32, 128]⟩
abbrev S50000x256 : Shape := ⟨2, ![50000, 256]⟩
abbrev S1000x32 : Shape := ⟨2, ![1000, 32]⟩
abbrev S1000x32x128 : Shape := ⟨3, ![1000, 32, 128]⟩
abbrev S1000x1 : Shape := ⟨2, ![1000, 1]⟩
abbrev S1000x256 : Shape := ⟨2, ![1000, 256]⟩
abbrev S1000 : Shape := ⟨1, ![1000]⟩
abbrev S1000x32x1 : Shape := ⟨3, ![1000, 32, 1]⟩
abbrev S1000x128 : Shape := ⟨2, ![1000, 128]⟩
abbrev S800000x256 : Shape := ⟨2, ![800000, 256]⟩
abbrev S1x256 : Shape := ⟨2, ![1, 256]⟩
abbrev S50000x40 : Shape := ⟨2, ![50000, 40]⟩
abbrev S5000x256 : Shape := ⟨2, ![5000, 256]⟩
abbrev S5000x1 : Shape := ⟨2, ![5000, 1]⟩
abbrev S5000x40 : Shape := ⟨2, ![5000, 40]⟩
abbrev S800000x40 : Shape := ⟨2, ![800000, 40]⟩
abbrev S1x40 : Shape := ⟨2, ![1, 40]⟩
abbrev S10000x40 : Shape := ⟨2, ![10000, 40]⟩
abbrev S10000x1 : Shape := ⟨2, ![10000, 1]⟩

abbrev nBuf : Space → Nat
  | .hbm => 77
  | .vmem => 26
  | .smem => 0
  | _ => 0

abbrev bufTy : (tb : Table) → Fin (tcTables nBuf tb) → BufTy
  | .hbm, ⟨0, _⟩ => ⟨S50000x32, .i32⟩
  | .hbm, ⟨1, _⟩ => ⟨S800000, .i32⟩
  | .hbm, ⟨2, _⟩ => ⟨S800000, .i32⟩
  | .hbm, ⟨3, _⟩ => ⟨S100000x128, .f32⟩
  | .hbm, ⟨4, _⟩ => ⟨S256x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S1, .i32⟩
  | .hbm, ⟨34, _⟩ => ⟨S_, .f32⟩
  | .hbm, ⟨35, _⟩ => ⟨S128, .f32⟩
  | .hbm, ⟨36, _⟩ => ⟨S100000x128, .f32⟩
  | .hbm, ⟨37, _⟩ => ⟨S_, .i32⟩
  | .hbm, ⟨38, _⟩ => ⟨S50000x32, .i32⟩
  | .hbm, ⟨39, _⟩ => ⟨S50000x32, .i1⟩
  | .hbm, ⟨40, _⟩ => ⟨S_, .i32⟩
  | .hbm, ⟨41, _⟩ => ⟨S50000x32, .i32⟩
  | .hbm, ⟨42, _⟩ => ⟨S50000x32, .i32⟩
  | .hbm, ⟨43, _⟩ => ⟨S50000x32, .i32⟩
  | .hbm, ⟨44, _⟩ => ⟨S50000x32x1, .i32⟩
  | .hbm, ⟨45, _⟩ => ⟨S50000x32x128, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S1x256, .f32⟩
  | .hbm, ⟨61, _⟩ => ⟨S50000x40, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x40, .f32⟩
  | .hbm, ⟨71, _⟩ => ⟨S_, .f32⟩
  | .hbm, ⟨72, _⟩ => ⟨S50000x40, .f32⟩
  | .hbm, ⟨73, _⟩ => ⟨S800000x1, .i32⟩
  | .hbm, ⟨74, _⟩ => ⟨S50000x40, .f32⟩
  | .hbm, ⟨75, _⟩ => ⟨S1x40, .f32⟩
  | .hbm, ⟨76, _⟩ => ⟨S50000x40, .f32⟩
  | .local _ .vmem, ⟨0, _⟩ => ⟨S1000x32, .i32⟩
  | .local _ .vmem, ⟨1, _⟩ => ⟨S1000x32, .i32⟩
  | .local _ .vmem, ⟨2, _⟩ => ⟨S1000x32x128, .f32⟩
  | .local _ .vmem, ⟨3, _⟩ => ⟨S1000x32x128, .f32⟩
  | .local _ .vmem, ⟨4, _⟩ => ⟨S256x256, .f32⟩
  | .local _ .vmem, ⟨5, _⟩ => ⟨S1000x1, .f32⟩
  | .local _ .vmem, ⟨6, _⟩ => ⟨S1000x1, .f32⟩
  | .local _ .vmem, ⟨7, _⟩ => ⟨S1000x256, .f32⟩
  | .local _ .vmem, ⟨8, _⟩ => ⟨S1000x256, .f32⟩
  | .local _ .vmem, ⟨9, _⟩ => ⟨S5000x256, .f32⟩
  | .local _ .vmem, ⟨10, _⟩ => ⟨S5000x256, .f32⟩
  | .local _ .vmem, ⟨11, _⟩ => ⟨S5000x1, .f32⟩
  | .local _ .vmem, ⟨12, _⟩ => ⟨S5000x1, .f32⟩
  | .local _ .vmem, ⟨13, _⟩ => ⟨S1x256, .f32⟩
  | .local _ .vmem, ⟨14, _⟩ => ⟨S256x40, .f32⟩
  | .local _ .vmem, ⟨15, _⟩ => ⟨S5000x1, .f32⟩
  | .local _ .vmem, ⟨16, _⟩ => ⟨S5000x1, .f32⟩
  | .local _ .vmem, ⟨17, _⟩ => ⟨S5000x40, .f32⟩
  | .local _ .vmem, ⟨18, _⟩ => ⟨S5000x40, .f32⟩
  | .local _ .vmem, ⟨19, _⟩ => ⟨S10000x40, .f32⟩
  | .local _ .vmem, ⟨20, _⟩ => ⟨S10000x40, .f32⟩
  | .local _ .vmem, ⟨21, _⟩ => ⟨S10000x1, .f32⟩
  | .local _ .vmem, ⟨22, _⟩ => ⟨S10000x1, .f32⟩
  | .local _ .vmem, ⟨23, _⟩ => ⟨S1x40, .f32⟩
  | .local _ .vmem, ⟨24, _⟩ => ⟨S10000x40, .f32⟩
  | .local _ .vmem, ⟨25, _⟩ => ⟨S10000x40, .f32⟩
  | _, _ => ⟨S50000x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_cst_6 : Ref sig .tc := ⟨.hbm, 34, rfl⟩
abbrev main_v18 : Ref sig .tc := ⟨.hbm, 35, rfl⟩
abbrev main_v19 : Ref sig .tc := ⟨.hbm, 36, rfl⟩
abbrev main_c_7 : Ref sig .tc := ⟨.hbm, 37, rfl⟩
abbrev main_v20 : Ref sig .tc := ⟨.hbm, 38, rfl⟩
abbrev main_v21 : Ref sig .tc := ⟨.hbm, 39, rfl⟩
abbrev main_c_8 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_9 : Ref sig .tc := ⟨.hbm, 47, rfl⟩
abbrev main_v28 : Ref sig .tc := ⟨.hbm, 48, rfl⟩
abbrev main_v29 : Ref sig .tc := ⟨.hbm, 49, rfl⟩
abbrev main_c_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_12 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S1 : S_.BroadcastsInDim S1 (![] : Fin 0 → Fin S1.rank)
  bcast_S_S128 : S_.BroadcastsInDim S128 (![] : Fin 0 → Fin S128.rank)
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  inb_S1000x32_S1000x32_0_0 : ∀ a, (![0, 0] : Fin 2 → Nat) a + S1000x32.size a ≤ S1000x32.size a
  h_S1000x32 : 0 < S1000x32.numel
  inb_S1000x32x128_S1000x32x128_0_0_0 : ∀ a, (![0, 0, 0] : Fin 3 → Nat) a + S1000x32x128.size a ≤ S1000x32x128.size a
  h_S1000x32x128 : 0 < S1000x32x128.numel
  shapeCasts_S1000x32x128_S1000x32x128 : S1000x32x128.ShapeCasts S1000x32x128
  natLt_1_32 : 1 < 32
  reduces_S1000x32_S1000 : S1000x32.Reduces [1] S1000
  shapeCasts_S1000_S1000x1 : S1000.ShapeCasts S1000x1
  shapeCasts_S1000x32_S1000x32x1 : S1000x32.ShapeCasts S1000x32x1
  broadcasts_S1000x32x1_S1000x32x128 : S1000x32x1.Broadcasts S1000x32x128
  reduces_S1000x32x128_S1000x128 : S1000x32x128.Reduces [1] S1000x128
  broadcasts_S1000x1_S1000x128 : S1000x1.Broadcasts S1000x128
  concatenates_S1000x128_S1000x128_S1000x256_d1 : Shape.Concatenates [S1000x128, S1000x128] S1000x256 1
  inb_S256x256_S256x256_0_0 : ∀ a, (![0, 0] : Fin 2 → Nat) a + S256x256.size a ≤ S256x256.size a
  h_S256x256 : 0 < S256x256.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  bcast_S_S50000x256 : S_.BroadcastsInDim S50000x256 (![] : Fin 0 → Fin S50000x256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x40_S256x40_0_0 : ∀ a, (![0, 0] : Fin 2 → Nat) a + S256x40.size a ≤ S256x40.size a
  h_S256x40 : 0 < S256x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S40_S1x40 : S40.ShapeCasts S1x40
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x40 : S10000x1.Broadcasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S50000_S800000x1_S800000_n_0_0_1_wf : ScatterDims.WF S50000 S800000x1 S800000 [] [0] [0] 1
  scatter_S100000x128_S1_S128_0_0_0_0_wf : ScatterDims.WF S100000x128 S1 S128 [0] [0] [0] 0
  gather_S100000x128_S50000x32x1_S50000x32x128_2_0_n_n_0_2_1128_wf : GatherDims.WF S100000x128 S50000x32x1 S50000x32x128 [2] [0] [] [0] [] 2 ![1, 128]
  dot_S1000x256_S256x256_S1000x256_1_0_0_1_n_n_wf : DotDims.WF S1000x256 S256x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x40_S5000x40_1_0_0_1_n_n_wf : DotDims.WF S5000x256 S256x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32.size a ≤ S50000x32.size a
  hwx0_0 : ∀ i : grid0.Coords, EltTy.bits .i32 = 32 ∨ (Rect.block (s := S50000x32) S1000x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32x128.size a ≤ S50000x32x128.size a
  hwx0_1 : ∀ i : grid0.Coords, EltTy.bits .f32 = 32 ∨ (Rect.block (s := S50000x32x128) S1000x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S50000x1.size a
  hwx0_3 : ∀ i : grid0.Coords, EltTy.bits .f32 = 32 ∨ (Rect.block (s := S50000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x40.size a ≤ S256x40.size a
  hwx1_3 : ∀ i : grid1.Coords, EltTy.bits .f32 = 32 ∨ (Rect.block (s := S256x40) S256x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S50000x40.size a
  hwx2_0 : ∀ i : grid2.Coords, EltTy.bits .f32 = 32 ∨ (Rect.block (s := S50000x40) S10000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x40.size a ≤ S50000x40.size a
  hwx2_3 : ∀ i : grid2.Coords, EltTy.bits .f32 = 32 ∨ (Rect.block (s := S50000x40) S10000x40.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S100000x128_S1_S128_0_0_0_0 : ScatterDims S100000x128 S1 S128 where
  updateWindowDims := [0]
  insertedWindowDims := [0]
  scatterDimsToOperandDims := [0]
  indexVectorDim := 0
  wf := scatter_S100000x128_S1_S128_0_0_0_0_wf
def gather_S100000x128_S50000x32x1_S50000x32x128_2_0_n_n_0_2_1128 : GatherDims S100000x128 S50000x32x1 S50000x32x128 where
  offsetDims := [2]
  collapsedSliceDims := [0]
  operandBatchingDims := []
  startIndicesBatchingDims := []
  startIndexMap := [0]
  indexVectorDim := 2
  sliceSizes := ![1, 128]
  wf := gather_S100000x128_S50000x32x1_S50000x32x128_2_0_n_n_0_2_1128_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S1000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1000x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S10000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x32 : Shape := ⟨2, ![50000, 32]⟩
abbrev S800000 : Shape := ⟨1, ![800000]⟩
abbrev S100000x128 : Shape := ⟨2, ![100000, 128]⟩
abbrev S256x256 : Shape := ⟨2, ![256, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S1 : Shape := ⟨1, ![1]⟩
abbrev S128 : Shape := ⟨1, ![128]⟩
abbrev S50000x32x1 : Shape := ⟨3, ![50000, 32, 1]⟩
abbrev S50000x32x128 : Shape := ⟨3, ![50000, 32, 128]⟩
abbrev S50000x1 : Shape := ⟨2, ![50000, 1]⟩
abbrev S50000x128 : Shape := ⟨2, ![50000, 128]⟩
abbrev S50000x256 : Shape := ⟨2, ![50000, 256]⟩
abbrev S800000x256 : Shape := ⟨2, ![800000, 256]⟩
abbrev S1x256 : Shape := ⟨2, ![1, 256]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 111
  | .vmem => 0
  | .smem => 0
  | _ => 0

abbrev bufTy : (tb : Table) → Fin (tcTables nBuf tb) → BufTy
  | .hbm, ⟨0, _⟩ => ⟨S50000x32, .i32⟩
  | .hbm, ⟨1, _⟩ => ⟨S800000, .i32⟩
  | .hbm, ⟨2, _⟩ => ⟨S800000, .i32⟩
  | .hbm, ⟨3, _⟩ => ⟨S100000x128, .f32⟩
  | .hbm, ⟨4, _⟩ => ⟨S256x256, .f32⟩
  | .hbm, ⟨5, _⟩ => ⟨S256, .f32⟩
  | .hbm, ⟨6, _⟩ => ⟨S256x40, .f32⟩
  | .hbm, ⟨7, _⟩ => ⟨S40, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S128, .f32⟩
  | .hbm, ⟨34, _⟩ => ⟨S100000x128, .f32⟩
  | .hbm, ⟨35, _⟩ => ⟨S_, .i32⟩
  | .hbm, ⟨36, _⟩ => ⟨S50000x32, .i32⟩
  | .hbm, ⟨37, _⟩ => ⟨S50000x32, .i1⟩
  | .hbm, ⟨38, _⟩ => ⟨S_, .i32⟩
  | .hbm, ⟨39, _⟩ => ⟨S50000x32, .i32⟩
  | .hbm, ⟨40, _⟩ => ⟨S50000x32, .i32⟩
  | .hbm, ⟨41, _⟩ => ⟨S50000x32, .i32⟩
  | .hbm, ⟨42, _⟩ => ⟨S50000x32x1, .i32⟩
  | .hbm, ⟨43, _⟩ => ⟨S50000x32x128, .f32⟩
  | .hbm, ⟨44, _⟩ => ⟨S_, .i32⟩
  | .hbm, ⟨45, _⟩ => ⟨S50000x32, .i32⟩
  | .hbm, ⟨46, _⟩ => ⟨S50000x32, .i1⟩
  | .hbm, ⟨47, _⟩ => ⟨S50000x32, .i32⟩
  | .hbm, ⟨48, _⟩ => ⟨S_, .i32⟩
  | .hbm, ⟨49, _⟩ => ⟨S50000, .i32⟩
  | .hbm, ⟨50, _⟩ => ⟨S_, .i32⟩
  | .hbm, ⟨51, _⟩ => ⟨S50000, .i32⟩
  | .hbm, ⟨52, _⟩ => ⟨S50000, .i32⟩
  | .hbm, ⟨53, _⟩ => ⟨S50000x1, .i32⟩
  | .hbm, ⟨54, _⟩ => ⟨S50000x1, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x256, .f32⟩
  | .hbm, ⟨62, _⟩ => ⟨S50000x256, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x256, .f32⟩
  | .hbm, ⟨75, _⟩ => ⟨S_, .f32⟩
  | .hbm, ⟨76, _⟩ => ⟨S50000x256, .f32⟩
  | .hbm, ⟨77, _⟩ => ⟨S800000x1, .i32⟩
  | .hbm, ⟨78, _⟩ => ⟨S50000x256, .f32⟩
  | .hbm, ⟨79, _⟩ => ⟨S50000x1, .f32⟩
  | .hbm, ⟨80, _⟩ => ⟨S50000x256, .f32⟩
  | .hbm, ⟨81, _⟩ => ⟨S50000x256, .f32⟩
  | .hbm, ⟨82, _⟩ => ⟨S1x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | .hbm, ⟨88, _⟩ => ⟨S50000x40, .f32⟩
  | .hbm, ⟨89, _⟩ => ⟨S50000x1, .f32⟩
  | .hbm, ⟨90, _⟩ => ⟨S50000x40, .f32⟩
  | .hbm, ⟨91, _⟩ => ⟨S50000x40, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x40, .f32⟩
  | .hbm, ⟨101, _⟩ => ⟨S_, .f32⟩
  | .hbm, ⟨102, _⟩ => ⟨S50000x40, .f32⟩
  | .hbm, ⟨103, _⟩ => ⟨S800000x1, .i32⟩
  | .hbm, ⟨104, _⟩ => ⟨S50000x40, .f32⟩
  | .hbm, ⟨105, _⟩ => ⟨S50000x1, .f32⟩
  | .hbm, ⟨106, _⟩ => ⟨S50000x40, .f32⟩
  | .hbm, ⟨107, _⟩ => ⟨S50000x40, .f32⟩
  | .hbm, ⟨108, _⟩ => ⟨S1x40, .f32⟩
  | .hbm, ⟨109, _⟩ => ⟨S50000x40, .f32⟩
  | .hbm, ⟨110, _⟩ => ⟨S50000x40, .f32⟩
  | _, _ => ⟨S50000x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_c_7 : Ref sig .tc := ⟨.hbm, 35, rfl⟩
abbrev main_v18 : Ref sig .tc := ⟨.hbm, 36, rfl⟩
abbrev main_v19 : Ref sig .tc := ⟨.hbm, 37, rfl⟩
abbrev main_c_8 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_9 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_10 : Ref sig .tc := ⟨.hbm, 48, rfl⟩
abbrev main_v28 : Ref sig .tc := ⟨.hbm, 49, rfl⟩
abbrev main_c_11 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_14 : Ref sig .tc := ⟨.hbm, 66, rfl⟩
abbrev main_v42 : Ref sig .tc := ⟨.hbm, 67, rfl⟩
abbrev main_v43 : Ref sig .tc := ⟨.hbm, 68, rfl⟩
abbrev main_c_15 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_16 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call0_cst : Ref sig .tc := ⟨.hbm, 85, rfl⟩
abbrev main_call0_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_v64 : Ref sig .tc := ⟨.hbm, 94, rfl⟩
abbrev main_c_18 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_19 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S1 : S_.BroadcastsInDim S1 (![] : Fin 0 → Fin S1.rank)
  bcast_S_S128 : S_.BroadcastsInDim S128 (![] : Fin 0 → Fin S128.rank)
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  natLt_1_32 : 1 < 32
  reducesTo_S50000x32_S50000_d1 : S50000x32.ReducesTo [1] S50000
  h_S_ : 0 < S_.numel
  bcast_S50000_S50000x1_0 : S50000.BroadcastsInDim S50000x1 (![0] : Fin 1 → Fin S50000x1.rank)
  reducesTo_S50000x32x128_S50000x128_d1 : S50000x32x128.ReducesTo [1] S50000x128
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x1_S50000x40_0_1 : S50000x1.BroadcastsInDim S50000x40 (![0, 1] : Fin 2 → Fin S50000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  scatter_S100000x128_S1_S128_0_0_0_0_wf : ScatterDims.WF S100000x128 S1 S128 [0] [0] [0] 0
  gather_S100000x128_S50000x32x1_S50000x32x128_2_0_n_n_0_2_1128_wf : GatherDims.WF S100000x128 S50000x32x1 S50000x32x128 [2] [0] [] [0] [] 2 ![1, 128]
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S100000x128_S1_S128_0_0_0_0 : ScatterDims S100000x128 S1 S128 where
  updateWindowDims := [0]
  insertedWindowDims := [0]
  scatterDimsToOperandDims := [0]
  indexVectorDim := 0
  wf := scatter_S100000x128_S1_S128_0_0_0_0_wf
def gather_S100000x128_S50000x32x1_S50000x32x128_2_0_n_n_0_2_1128 : GatherDims S100000x128 S50000x32x1 S50000x32x128 where
  offsetDims := [2]
  collapsedSliceDims := [0]
  operandBatchingDims := []
  startIndicesBatchingDims := []
  startIndexMap := [0]
  indexVectorDim := 2
  sliceSizes := ![1, 128]
  wf := gather_S100000x128_S50000x32x1_S50000x32x128_2_0_n_n_0_2_1128_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KRun.lean ====
/-
  The idealized kernel program's run with its result named.

  The program is six segments: host operations, the first pallas_call, host operations, the second, host operations,
  the third.  Its frame proof follows the contents of every buffer from segment boundary to segment boundary (`W0` at
  launch … `W6` at the return) and reads the final state against `W6`.  Here the same launch is stated once more with
  one more buffer read off the final state: the result array `main_v51`, which ends at `W6`'s contents of it.
  What those contents are, as a function of the arguments, is a separate matter (the value modules).
-/
import proofs.«164033_j9122510536818_2_alg».proof.Proof.Gen.KernelIdeal.Frame

set_option maxRecDepth 16384

noncomputable section

namespace Cert.KSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of it and the arguments as launched. -/
theorem run : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KSide

end
-- ==== Proof.Spec.lean ====
/-
  The function both programs compute, stated once.

  A graph convolution network over 50000 nodes: each node's 32 token ids select rows of an embedding table whose row 0
  (the padding id) is overwritten by zeros; the node's feature vector is the mean of its 32 rows over the number of
  non-padding tokens (at least 1), followed by the rows' entrywise maximum; two rounds of
  "dense layer, scale by the source norm, pass along the edges, scale by the target norm, add the bias" follow, the
  first ending in a maximum with 0.

  The dense stages are written row by row over the extended reals (a row of the result depends on one row of the
  input), the edge passes and the degree norms as the host operations both programs spell alike.  The two programs differ in the
  first stage only: one multiplies every gathered row by its token's 0/1 weight before summing and counts the weights
  as floats (`layer1K`), the other sums the rows as they are and counts the non-padding tokens as 32-bit words
  (`layer1R`).
-/
import proofs.«164033_j9122510536818_2_alg».proof.Proof.RefReadP
import Idealize.ShloMosaic.Lib.ValueIdx
import Idealize.ShloMosaic.PureOps.Ideal.Laws

noncomputable section

namespace Cert.Spec

open Idealize.ShloMosaic Idealize.ShloMosaic.ValueIdx
open Cert.ReferenceIdeal Cert.ReferenceIdeal.ReadP

/-! ## One row of each dense stage -/

/-- The test "this token id is not the padding id 0", as a 32-bit word (1 or 0). -/
def flag (w : BitVec 32) : BitVec 32 := (IntOp.cmpi .ne w 0#32).setWidth 32

/-- A token's weight in the mean: that word read as a number. -/
def keep (w : BitVec 32) : EReal := FloatOps.sitofp (F := Ideal) .f32 (flag w)

/-- The number of non-padding tokens of a row, at least 1: the weights summed as numbers. -/
def cntK (f : Fin 32 → BitVec 32) : EReal := max (∑ l, keep (f l)) (Ideal.ofBits .f32 0x3F800000#32)

/-- The same count taken on 32-bit words and read as a number at the end. -/
def cntR (f : Fin 32 → BitVec 32) : EReal :=
  FloatOps.sitofp (F := Ideal) .f32 (IntOp.maxsi (Finset.univ.fold IntOp.addi 0#32 fun l => flag (f l)) 1#32)

/-- Entry `k` of the weighted mean of a row's 32 gathered rows. -/
def meanK (f : Fin 32 → BitVec 32) (g : Fin 32 → Fin 128 → EReal) (k : Fin 128) : EReal :=
  Ideal.div (∑ l, g l k * keep (f l)) (cntK f)

/-- Entry `k` of the plain mean: the rows summed as they are, over the word count. -/
def meanR (f : Fin 32 → BitVec 32) (g : Fin 32 → Fin 128 → EReal) (k : Fin 128) : EReal :=
  Ideal.div (∑ l, g l k) (cntR f)

/-- Entry `k` of the entrywise maximum of a row's 32 gathered rows, taken from -∞. -/
def top (g : Fin 32 → Fin 128 → EReal) (k : Fin 128) : EReal :=
  (Finset.univ : Finset (Fin 32)).fold max (Ideal.ofBits .f32 0xFF800000#32) fun l => g l k

/-- Two vectors of 128 entries set one after the other. -/
def join (a b : Fin 128 → EReal) (k : Fin 256) : EReal :=
  if h : k.val < 128 then a ⟨k.val, h⟩ else b ⟨k.val - 128, by have := k.isLt; omega⟩

/-- A row times a matrix, the result scaled by `s`. -/
def dense {K C : Nat} (h : Fin K → EReal) (W : Fin K → Fin C → EReal) (s : EReal) (q : Fin C) : EReal :=
  (∑ k, h k * W k q) * s

/-- One row of the first stage, weights applied before the sum. -/
def layer1K (f : Fin 32 → BitVec 32) (g : Fin 32 → Fin 128 → EReal) (W : Fin 256 → Fin 256 → EReal) (s : EReal)
    (q : Fin 256) : EReal :=
  dense (join (meanK f g) (top g)) W s q

/-- One row of the first stage, the rows summed as they are. -/
def layer1R (f : Fin 32 → BitVec 32) (g : Fin 32 → Fin 128 → EReal) (W : Fin 256 → Fin 256 → EReal) (s : EReal)
    (q : Fin 256) : EReal :=
  dense (join (meanR f g) (top g)) W s q

/-- One row of the hidden activation: the aggregate scaled by the target norm, plus the bias, floored at 0. -/
def hidden (a : Fin 256 → EReal) (d : EReal) (b : Fin 256 → EReal) (k : Fin 256) : EReal :=
  max (a k * d + b k) (Ideal.ofBits .f32 0x00000000#32)

/-- One row of the second stage. -/
def layer2 (a : Fin 256 → EReal) (d : EReal) (b : Fin 256 → EReal) (W : Fin 256 → Fin 40 → EReal) (s : EReal)
    (q : Fin 40) : EReal :=
  dense (hidden a d b) W s q

/-! ## The stages on whole arrays -/

/-- The degree norm of the nodes under one end of the edge list: (max(number of edges at the node, 1))^(-1/2). -/
def norm (e : IVec S800000 32) : FVec Ideal S50000 .f32 := val_main_v12 (F := Ideal) e

/-- The gathered token embeddings, the padding row zeroed first. -/
def gathered (x0 : IVec S50000x32 32) (x3 : FVec Ideal S100000x128 .f32) : FVec Ideal S50000x32x128 .f32 :=
  val_main_v24 (F := Ideal) x0 x3

/-- One pass along the edges, 256 wide: the rows at the edges' sources added up at their targets. -/
def pass256 (y : FVec Ideal S50000x256 .f32) (x1 x2 : IVec S800000 32) : FVec Ideal S50000x256 .f32 :=
  Host.scatterAdd scatter_S50000x256_S800000x1_S800000x256_1_0_0_1 (val_main_v49 (F := Ideal)) (val_main_v50 (F := Ideal) x2)
    (Host.gather gather_S50000x256_S800000x1_S800000x256_1_0_n_n_0_1_1256 y (val_main_v47 (F := Ideal) x1))

/-- One pass along the edges, 40 wide. -/
def pass40 (y : FVec Ideal S50000x40 .f32) (x1 x2 : IVec S800000 32) : FVec Ideal S50000x40 .f32 :=
  Host.scatterAdd scatter_S50000x40_S800000x1_S800000x40_1_0_0_1 (val_main_v70 (F := Ideal)) (val_main_v71 (F := Ideal) x2)
    (Host.gather gather_S50000x40_S800000x1_S800000x40_1_0_n_n_0_1_140 y (val_main_v68 (F := Ideal) x1))

/-- The first stage on the whole arrays, row by row, weights applied before the sum. -/
def stage1K (x0 : IVec S50000x32 32) (hg : FVec Ideal S50000x32x128 .f32) (x4 : FVec Ideal S256x256 .f32)
    (nS : FVec Ideal S50000 .f32) : FVec Ideal S50000x256 .f32 := fun i =>
  layer1K (fun l => x0 (ix2 (i 0) l)) (fun l d => hg (ix3 (i 0) l d)) (fun k q => x4 (ix2 k q)) (nS (ix1 (i 0))) (i 1)

/-- The first stage on the whole arrays, the rows summed as they are. -/
def stage1R (x0 : IVec S50000x32 32) (hg : FVec Ideal S50000x32x128 .f32) (x4 : FVec Ideal S256x256 .f32)
    (nS : FVec Ideal S50000 .f32) : FVec Ideal S50000x256 .f32 := fun i =>
  layer1R (fun l => x0 (ix2 (i 0) l)) (fun l d => hg (ix3 (i 0) l d)) (fun k q => x4 (ix2 k q)) (nS (ix1 (i 0))) (i 1)

/-- The second stage on the whole arrays. -/
def stage2 (a : FVec Ideal S50000x256 .f32) (nD : FVec Ideal S50000 .f32) (x5 : FVec Ideal S256 .f32)
    (x6 : FVec Ideal S256x40 .f32) (nS : FVec Ideal S50000 .f32) : FVec Ideal S50000x40 .f32 := fun i =>
  layer2 (fun k => a (ix2 (i 0) k)) (nD (ix1 (i 0))) (fun k => x5 (ix1 k)) (fun k q => x6 (ix2 k q)) (nS (ix1 (i 0))) (i 1)

/-- The last stage: the aggregate scaled by the target norm, plus the bias. -/
def stage3 (a : FVec Ideal S50000x40 .f32) (nD : FVec Ideal S50000 .f32) (x7 : FVec Ideal S40 .f32) :
    FVec Ideal S50000x40 .f32 := fun i =>
  a (ix2 (i 0) (i 1)) * nD (ix1 (i 0)) + x7 (ix1 (i 1))

/-- What follows the first stage, the same in both programs. -/
def rest (y1 : FVec Ideal S50000x256 .f32) (x1 x2 : IVec S800000 32) (x5 : FVec Ideal S256 .f32)
    (x6 : FVec Ideal S256x40 .f32) (x7 : FVec Ideal S40 .f32) : FVec Ideal S50000x40 .f32 :=
  stage3 (pass40 (stage2 (pass256 y1 x1 x2) (norm x2) x5 x6 (norm x1)) x1 x2) (norm x2) x7

/-- The whole function with the weights applied before the sum. -/
def outK (x0 : IVec S50000x32 32) (x1 x2 : IVec S800000 32) (x3 : FVec Ideal S100000x128 .f32)
    (x4 : FVec Ideal S256x256 .f32) (x5 : FVec Ideal S256 .f32) (x6 : FVec Ideal S256x40 .f32) (x7 : FVec Ideal S40 .f32) :
    FVec Ideal S50000x40 .f32 :=
  rest (stage1K x0 (gathered x0 x3) x4 (norm x1)) x1 x2 x5 x6 x7

/-- The whole function with the rows summed as they are. -/
def outR (x0 : IVec S50000x32 32) (x1 x2 : IVec S800000 32) (x3 : FVec Ideal S100000x128 .f32)
    (x4 : FVec Ideal S256x256 .f32) (x5 : FVec Ideal S256 .f32) (x6 : FVec Ideal S256x40 .f32) (x7 : FVec Ideal S40 .f32) :
    FVec Ideal S50000x40 .f32 :=
  rest (stage1R x0 (gathered x0 x3) x4 (norm x1)) x1 x2 x5 x6 x7

end Cert.Spec

end
-- ==== Proof.KHost.lean ====
/-
  The idealized kernel program between its pallas_calls: what the host operations leave in the buffers the
  pallas_calls read, boundary by boundary.

  `W0` is the launch memory, `W1` what the first stretch of host operations leaves (the degree norms as columns,
  the gathered token embeddings), `W2` the same with the first pallas_call's result array filled in, `W3` after the
  first pass along the edges, `W4` with the second pallas_call's result, `W5` after the second pass, `W6` at the
  return.  Each stretch's results are its operations applied to the boundary's contents; a buffer no operation of a
  stretch writes, and no pallas_call writes back, keeps its contents across it.
-/
import proofs.«164033_j9122510536818_2_alg».proof.Proof.Gen.KernelIdeal.Frame
import proofs.«164033_j9122510536818_2_alg».proof.Proof.Spec
import Idealize.ShloMosaic.Lib.StableHlo.Run
import Idealize.ShloMosaic.Lib.Pipeline.Value
import Idealize.ShloMosaic.Lib.ValueLayout

set_option maxRecDepth 16384

noncomputable section

namespace Cert.KSide

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window BodyObligation cellOf)

variable (m : (ℓ : Loc nD τ sig) → Buf (Elt Ideal) ℓ) (ρ : Dev nD → PrngReg)

/-! ## Two re-layings of a vector -/

/-- A vector of `a` entries kept as an `a×1` column, read at `(p, 0)`. -/
theorem column_apply {a : ℕ} {α : Type} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-! ## The first stretch: from the launch memory -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

set_option maxHeartbeats 4000000 in
/-- The gathered token embeddings, as the first pallas_call finds them. -/
theorem W1_v26 (c : Dev nD) : W1 m ρ c (Proc.devRef .tc main_v26) = Cert.Spec.gathered (m ((c : Thread nD τ).loc main_arg0)) (m ((c : Thread nD τ).loc main_arg3)) := by
  show StableHlo.after hostOps0 (W0 m ρ c) (Proc.devRef .tc main_v26) = _
  after_results_simp
  rfl

set_option maxHeartbeats 4000000 in
theorem W1_v13_eq (c : Dev nD) : W1 m ρ c (Proc.devRef .tc main_v13)
    = shapeCast S50000x1 (Cert.Spec.norm (m ((c : Thread nD τ).loc main_arg1))) shapeCasts_S50000_S50000x1 := by
  show StableHlo.after hostOps0 (W0 m ρ c) (Proc.devRef .tc main_v13) = _
  after_results_simp
  rfl

set_option maxHeartbeats 4000000 in
theorem W1_v16_eq (c : Dev nD) : W1 m ρ c (Proc.devRef .tc main_v16)
    = shapeCast S50000x1 (Cert.Spec.norm (m ((c : Thread nD τ).loc main_arg2))) shapeCasts_S50000_S50000x1 := by
  show StableHlo.after hostOps0 (W0 m ρ c) (Proc.devRef .tc main_v16) = _
  after_results_simp
  rfl

/-- The source norm, kept as a column: row `p` holds the norm of node `p`. -/
theorem W1_v13 (c : Dev nD) (p : Fin 50000) (u : Fin 1) :
    (W1 m ρ c (Proc.devRef .tc main_v13) : S50000x1.Idx → EReal) (ix2 p u) = Cert.Spec.norm (m ((c : Thread nD τ).loc main_arg1)) (ix1 p) := by
  rw [W1_v13_eq]; exact column_apply _ _ p u

/-- The target norm, kept as a column. -/
theorem W1_v16 (c : Dev nD) (p : Fin 50000) (u : Fin 1) :
    (W1 m ρ c (Proc.devRef .tc main_v16) : S50000x1.Idx → EReal) (ix2 p u) = Cert.Spec.norm (m ((c : Thread nD τ).loc main_arg2)) (ix1 p) := by
  rw [W1_v16_eq]; exact column_apply _ _ p u

/-! ## Across the first pallas_call -/

theorem W2_arg1 (c : Dev nD) : W2 m ρ c (Proc.devRef .tc main_arg1) = W1 m ρ c (Proc.devRef .tc main_arg1) := W2_of_ne m ρ c main_arg1 (by decide)

theorem W2_arg2 (c : Dev nD) : W2 m ρ c (Proc.devRef .tc main_arg2) = W1 m ρ c (Proc.devRef .tc main_arg2) := W2_of_ne m ρ c main_arg2 (by decide)

theorem W2_arg5 (c : Dev nD) : W2 m ρ c (Proc.devRef .tc main_arg5) = W1 m ρ c (Proc.devRef .tc main_arg5) := W2_of_ne m ρ c main_arg5 (by decide)

theorem W2_arg6 (c : Dev nD) : W2 m ρ c (Proc.devRef .tc main_arg6) = W1 m ρ c (Proc.devRef .tc main_arg6) := W2_of_ne m ρ c main_arg6 (by decide)

theorem W2_arg7 (c : Dev nD) : W2 m ρ c (Proc.devRef .tc main_arg7) = W1 m ρ c (Proc.devRef .tc main_arg7) := W2_of_ne m ρ c main_arg7 (by decide)

theorem W2_v16 (c : Dev nD) : W2 m ρ c (Proc.devRef .tc main_v16) = W1 m ρ c (Proc.devRef .tc main_v16) := W2_of_ne m ρ c main_v16 (by decide)

theorem W2_v13 (c : Dev nD) : W2 m ρ c (Proc.devRef .tc main_v13) = W1 m ρ c (Proc.devRef .tc main_v13) :=
  (W2_arr m ρ c 3).trans (((dat0 (V1 m ρ) c).arrAt_in 3 rfl _).trans (A_eq0 (V1 m ρ) c 3))

/-! ## The second stretch: one pass along the edges, and the first bias as a row -/

theorem W3_v37 (c : Dev nD) : W3 m ρ c (Proc.devRef .tc main_v37)
    = Cert.Spec.pass256 (W2 m ρ c (Proc.devRef .tc main_v27)) (W2 m ρ c (Proc.devRef .tc main_arg1)) (W2 m ρ c (Proc.devRef .tc main_arg2)) := by
  show StableHlo.after hostOps1 (W2 m ρ c) (Proc.devRef .tc main_v37) = _
  after_results_simp
  rfl

theorem W3_v38_eq (c : Dev nD) : W3 m ρ c (Proc.devRef .tc main_v38)
    = shapeCast S1x256 (W2 m ρ c (Proc.devRef .tc main_arg5) : S256.Idx → EReal) shapeCasts_S256_S1x256 := by
  show StableHlo.after hostOps1 (W2 m ρ c) (Proc.devRef .tc main_v38) = _
  after_results_simp
  rfl

theorem W3_v16 (c : Dev nD) : W3 m ρ c (Proc.devRef .tc main_v16) = W2 m ρ c (Proc.devRef .tc main_v16) :=
  (StableHlo.after_of_forall_not_mem (b := Proc.devRef .tc main_v16) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W3_v13 (c : Dev nD) : W3 m ρ c (Proc.devRef .tc main_v13) = W2 m ρ c (Proc.devRef .tc main_v13) :=
  (StableHlo.after_of_forall_not_mem (b := Proc.devRef .tc main_v13) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W3_arg6 (c : Dev nD) : W3 m ρ c (Proc.devRef .tc main_arg6) = W2 m ρ c (Proc.devRef .tc main_arg6) :=
  (StableHlo.after_of_forall_not_mem (b := Proc.devRef .tc main_arg6) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W3_arg1 (c : Dev nD) : W3 m ρ c (Proc.devRef .tc main_arg1) = W2 m ρ c (Proc.devRef .tc main_arg1) :=
  (StableHlo.after_of_forall_not_mem (b := Proc.devRef .tc main_arg1) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W3_arg2 (c : Dev nD) : W3 m ρ c (Proc.devRef .tc main_arg2) = W2 m ρ c (Proc.devRef .tc main_arg2) :=
  (StableHlo.after_of_forall_not_mem (b := Proc.devRef .tc main_arg2) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem W3_arg7 (c : Dev nD) : W3 m ρ c (Proc.devRef .tc main_arg7) = W2 m ρ c (Proc.devRef .tc main_arg7) :=
  (StableHlo.after_of_forall_not_mem (b := Proc.devRef .tc main_arg7) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

/-! ## Across the second pallas_call -/

theorem W4_arg1 (c : Dev nD) : W4 m ρ c (Proc.devRef .tc main_arg1) = W3 m ρ c (Proc.devRef .tc main_arg1) := W4_of_ne m ρ c main_arg1 (by decide)

theorem W4_arg2 (c : Dev nD) : W4 m ρ c (Proc.devRef .tc main_arg2) = W3 m ρ c (Proc.devRef .tc main_arg2) := W4_of_ne m ρ c main_arg2 (by decide)

theorem W4_arg7 (c : Dev nD) : W4 m ρ c (Proc.devRef .tc main_arg7) = W3 m ρ c (Proc.devRef .tc main_arg7) := W4_of_ne m ρ c main_arg7 (by decide)

theorem W4_v16 (c : Dev nD) : W4 m ρ c (Proc.devRef .tc main_v16) = W3 m ρ c (Proc.devRef .tc main_v16) :=
  (W4_arr m ρ c 1).trans (((dat1 (V3 m ρ) c).arrAt_in 1 rfl _).trans (A_eq1 (V3 m ρ) c 1))

/-! ## The third stretch: the second pass along the edges, and the second bias as a row -/

theorem W5_v49 (c : Dev nD) : W5 m ρ c (Proc.devRef .tc main_v49)
    = Cert.Spec.pass40 (W4 m ρ c (Proc.devRef .tc main_v39)) (W4 m ρ c (Proc.devRef .tc main_arg1)) (W4 m ρ c (Proc.devRef .tc main_arg2)) := by
  show StableHlo.after hostOps2 (W4 m ρ c) (Proc.devRef .tc main_v49) = _
  after_results_simp
  rfl

theorem W5_v50_eq (c : Dev nD) : W5 m ρ c (Proc.devRef .tc main_v50)
    = shapeCast S1x40 (W4 m ρ c (Proc.devRef .tc main_arg7) : S40.Idx → EReal) shapeCasts_S40_S1x40 := by
  show StableHlo.after hostOps2 (W4 m ρ c) (Proc.devRef .tc main_v50) = _
  after_results_simp
  rfl

theorem W5_v16 (c : Dev nD) : W5 m ρ c (Proc.devRef .tc main_v16) = W4 m ρ c (Proc.devRef .tc main_v16) :=
  (StableHlo.after_of_forall_not_mem (b := Proc.devRef .tc main_v16) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

end Cert.KSide

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.Region0Pay.lean ====
/-
  One entry of what the first pallas_call's body stores.

  The body loads a block of 1000 nodes: their token ids `x0` (1000×32), their gathered embeddings `x1`
  (1000×32×128), the weight matrix `x2` (256×256) and the source norms `x3` (1000×1).  It stores, at row `p` and
  column `q`, the node's pooled features (the weighted mean of its 32 embedding rows over its count of non-padding
  tokens, then the rows' entrywise maximum) times column `q` of the weights, scaled by the node's norm: the row
  function `layer1K` of the specification at the block's row `p`.
-/
import proofs.«164033_j9122510536818_2_alg».proof.Proof.Gen.KernelIdeal.Skeleton
import proofs.«164033_j9122510536818_2_alg».proof.Proof.Spec
import proofs.«164033_j9122510536818_2_alg».proof.Proof.LibConcatCols
import Idealize.ShloMosaic.Lib.Pipeline.Value
import Idealize.ShloMosaic.Lib.ValueLayout
import Idealize.ShloMosaic.PureOps.Ideal.Laws

set_option maxRecDepth 16384

noncomputable section

namespace Cert.KRegion0

open Cert.KernelIdeal Cert.KernelIdeal.Gen
open Idealize.ShloMosaic Idealize.ShloMosaic.ValueIdx

variable (x0 : IVec S1000x32 32) (x1 : FVec Ideal S1000x32x128 .f32) (x2 : FVec Ideal S256x256 .f32) (x3 : FVec Ideal S1000x1 .f32)

/-! ## The body's value in named pieces -/

/-- The tokens' 0/1 weights. -/
def mask : FVec Ideal S1000x32 .f32 := sitofp .f32 (extui 32 (cmpi .ne x0 (broadcast S1000x32 0#32)) natLt_1_32)

/-- The weights of a node summed. -/
def msum : FVec Ideal S1000 .f32 := multiReduction .add [1] S1000 (mask x0) 0x00000000#32 reduces_S1000x32_S1000 (.inl rfl) rfl

/-- The count of a node's non-padding tokens, at least 1, as a column. -/
def cnt : FVec Ideal S1000x1 .f32 :=
  maximumf (shapeCast S1000x1 (msum x0) shapeCasts_S1000_S1000x1) (broadcast S1000x1 (Scalar.ofBits .f32 0x3F800000#32))

/-- The embedding rows times their tokens' weights. -/
def weighted : FVec Ideal S1000x32x128 .f32 :=
  mulf (shapeCast S1000x32x128 x1 shapeCasts_S1000x32x128_S1000x32x128)
    (broadcastTo S1000x32x128 (shapeCast S1000x32x1 (mask x0) shapeCasts_S1000x32_S1000x32x1) broadcasts_S1000x32x1_S1000x32x128)

/-- The weighted rows summed over a node's tokens. -/
def wsum : FVec Ideal S1000x128 .f32 :=
  multiReduction .add [1] S1000x128 (weighted x0 x1) 0x00000000#32 reduces_S1000x32x128_S1000x128 (.inl rfl) rfl

/-- The weighted mean. -/
def mean : FVec Ideal S1000x128 .f32 := divf (wsum x0 x1) (broadcastTo S1000x128 (cnt x0) broadcasts_S1000x1_S1000x128)

/-- The entrywise maximum over a node's tokens. -/
def tops : FVec Ideal S1000x128 .f32 :=
  multiReduction .maximumf [1] S1000x128 (shapeCast S1000x32x128 x1 shapeCasts_S1000x32x128_S1000x32x128) 0xFF800000#32
    reduces_S1000x32x128_S1000x128 (.inl rfl) rfl

/-- The pooled features: mean, then maximum. -/
def pooled : FVec Ideal S1000x256 .f32 :=
  concatenate S1000x256 1 [⟨S1000x128, mean x0 x1⟩, ⟨S1000x128, tops x1⟩] concatenates_S1000x128_S1000x128_S1000x256_d1

/-- The body's stored value is these pieces put together. -/
theorem pay_eq : k0_pay1 (F := Ideal) x0 x1 x2 x3
    = mulf (matmul dot_S1000x256_S256x256_S1000x256_1_0_0_1_n_n none (pooled x0 x1) x2 (constant S1000x256 .f32 0x00000000#32))
        (broadcastTo S1000x256 (shapeCast S1000x1 x3 shapeCasts_S1000x1_S1000x1) broadcasts_S1000x1_S1000x256) := rfl

/-! ## Each piece at an entry -/

theorem mask_apply (p : Fin 1000) (l : Fin 32) : mask x0 (ix2 p l) = Cert.Spec.keep (x0 (ix2 p l)) := rfl

theorem msum_apply (p : Fin 1000) : msum x0 (ix1 p) = ∑ l : Fin 32, Cert.Spec.keep (x0 (ix2 p l)) := by
  refine (Ideal.multiReduction_add_single (mask x0) 0x00000000#32 reduces_S1000x32_S1000 (.inl rfl) rfl (ix1 p)).trans ?_
  refine Finset.sum_congr rfl fun l _ => ?_
  refine Eq.trans (congrArg (mask x0) ?_) (mask_apply x0 p ⟨l.val, l.isLt⟩)
  funext a; apply Fin.ext
  match a with
  | ⟨0, _⟩ => rfl
  | ⟨1, _⟩ => rfl

/-! ## Re-layings read at an entry -/

/-- A vector of `a` entries kept as an `a×1` column, read at `(p, 0)`. -/
theorem column_apply {a : ℕ} {α : Type} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `a×b` table kept as `a×b×1`, read at `(p, l, 0)`. -/
theorem slab_apply {a b : ℕ} {α : Type} (x : (⟨2, ![a, b]⟩ : Shape).Idx → α) (h : (⟨2, ![a, b]⟩ : Shape).ShapeCasts ⟨3, ![a, b, 1]⟩)
    (p : Fin a) (l : Fin b) (u : Fin 1) : shapeCast ⟨3, ![a, b, 1]⟩ x h (ix3 p l u) = x (ix2 p l) :=
  shapeCast_apply x h _ _ (by
    have hu : u.val = 0 := by omega
    rw [Shape.rowMajor_val_three, Shape.rowMajor_val_two]
    show p.val * b + l.val = (p.val * b + l.val) * 1 + u.val
    omega)

/-- An `a×1` column spread along `b` lanes, read at `(p, q)`. -/
theorem spread_col_apply {a b : ℕ} {α : Type} (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) :=
  broadcastTo_apply x h _ _ (fun d => by
    match d with
    | ⟨0, _⟩ =>
      show p.val = if a = 1 then 0 else p.val
      split
      · have := p.isLt; omega
      · rfl
    | ⟨1, _⟩ => show 0 = if (1 : ℕ) = 1 then 0 else q.val; rw [if_pos rfl])

/-- An `a×b×1` array spread along `c` lanes, read at `(p, l, d)`. -/
theorem spread_slab_apply {a b c : ℕ} {α : Type} (x : (⟨3, ![a, b, 1]⟩ : Shape).Idx → α)
    (h : (⟨3, ![a, b, 1]⟩ : Shape).Broadcasts ⟨3, ![a, b, c]⟩) (p : Fin a) (l : Fin b) (d : Fin c) :
    broadcastTo ⟨3, ![a, b, c]⟩ x h (ix3 p l d) = x (ix3 p l (0 : Fin 1)) :=
  broadcastTo_apply x h _ _ (fun e => by
    match e with
    | ⟨0, _⟩ =>
      show p.val = if a = 1 then 0 else p.val
      split
      · have := p.isLt; omega
      · rfl
    | ⟨1, _⟩ =>
      show l.val = if b = 1 then 0 else l.val
      split
      · have := l.isLt; omega
      · rfl
    | ⟨2, _⟩ => show 0 = if (1 : ℕ) = 1 then 0 else d.val; rw [if_pos rfl])

/-! ## The pieces at an entry, continued -/

theorem cnt_apply (p : Fin 1000) (u : Fin 1) : cnt x0 (ix2 p u) = Cert.Spec.cntK (fun l => x0 (ix2 p l)) := by
  show max (shapeCast S1000x1 (msum x0) shapeCasts_S1000_S1000x1 (ix2 p u)) (Ideal.ofBits .f32 0x3F800000#32) = _
  rw [column_apply, msum_apply]
  rfl

theorem weighted_apply (p : Fin 1000) (l : Fin 32) (d : Fin 128) :
    weighted x0 x1 (ix3 p l d) = x1 (ix3 p l d) * Cert.Spec.keep (x0 (ix2 p l)) := by
  show shapeCast S1000x32x128 x1 shapeCasts_S1000x32x128_S1000x32x128 (ix3 p l d)
      * broadcastTo S1000x32x128 (shapeCast S1000x32x1 (mask x0) shapeCasts_S1000x32_S1000x32x1) broadcasts_S1000x32x1_S1000x32x128 (ix3 p l d) = _
  rw [shapeCast_self, spread_slab_apply, slab_apply, mask_apply]

theorem wsum_apply (p : Fin 1000) (k : Fin 128) :
    wsum x0 x1 (ix2 p k) = ∑ l : Fin 32, x1 (ix3 p l k) * Cert.Spec.keep (x0 (ix2 p l)) := by
  refine (Ideal.multiReduction_add_single (weighted x0 x1) 0x00000000#32 reduces_S1000x32x128_S1000x128 (.inl rfl) rfl (ix2 p k)).trans ?_
  refine Finset.sum_congr rfl fun l _ => ?_
  refine Eq.trans (congrArg (weighted x0 x1) ?_) (weighted_apply x0 x1 p ⟨l.val, l.isLt⟩ k)
  funext a; apply Fin.ext
  match a with
  | ⟨0, _⟩ => rfl
  | ⟨1, _⟩ => rfl
  | ⟨2, _⟩ => rfl

theorem mean_apply (p : Fin 1000) (k : Fin 128) :
    mean x0 x1 (ix2 p k) = Cert.Spec.meanK (fun l => x0 (ix2 p l)) (fun l d => x1 (ix3 p l d)) k := by
  show Ideal.div (wsum x0 x1 (ix2 p k)) (broadcastTo S1000x128 (cnt x0) broadcasts_S1000x1_S1000x128 (ix2 p k)) = _
  rw [wsum_apply, spread_col_apply, cnt_apply]
  rfl

theorem tops_apply (p : Fin 1000) (k : Fin 128) :
    tops x1 (ix2 p k) = Cert.Spec.top (fun l d => x1 (ix3 p l d)) k := by
  refine (Ideal.multiReduction_maximumf_single (shapeCast S1000x32x128 x1 shapeCasts_S1000x32x128_S1000x32x128) 0xFF800000#32
    reduces_S1000x32x128_S1000x128 (.inl rfl) rfl (ix2 p k)).trans ?_
  rw [shapeCast_self]
  refine congrArg (fun f : Fin 32 → EReal => Finset.fold max (Ideal.ofBits .f32 0xFF800000#32) f (Finset.univ : Finset (Fin 32))) (funext fun l => ?_)
  refine congrArg x1 ?_
  funext a; apply Fin.ext
  match a with
  | ⟨0, _⟩ => rfl
  | ⟨1, _⟩ => rfl
  | ⟨2, _⟩ => rfl

theorem pooled_apply (p : Fin 1000) (k : Fin 256) :
    pooled x0 x1 (ix2 p k) = Cert.Spec.join (Cert.Spec.meanK (fun l => x0 (ix2 p l)) (fun l d => x1 (ix3 p l d)))
      (Cert.Spec.top (fun l d => x1 (ix3 p l d))) k := by
  unfold Cert.Spec.join pooled
  by_cases h : k.val < 128
  · rw [dif_pos h]
    exact (Cert.Lib.ConcatCols.concat_cols_left (mean x0 x1) (tops x1) concatenates_S1000x128_S1000x128_S1000x256_d1 p k ⟨k.val, h⟩ rfl).trans
      (mean_apply x0 x1 p ⟨k.val, h⟩)
  · rw [dif_neg h]
    have hk := k.isLt
    exact (Cert.Lib.ConcatCols.concat_cols_right (mean x0 x1) (tops x1) concatenates_S1000x128_S1000x128_S1000x256_d1 p k
      ⟨k.val - 128, by omega⟩ (by show 128 + (k.val - 128) = k.val; omega)).trans (tops_apply x1 p ⟨k.val - 128, by omega⟩)

/-! ## The matrix product at an entry -/

theorem lhs_0 (i : S1000x256.Idx) (q : dot_S1000x256_S256x256_S1000x256_1_0_0_1_n_n.contr.Idx) : (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_1 (i : S1000x256.Idx) (q : dot_S1000x256_S256x256_S1000x256_1_0_0_1_n_n.contr.Idx) : (dot_S1000x256_S256x256_S1000x256_1_0_0_1_n_n.lhsIdx i q 1).val = (q ⟨0, by decide⟩).val :=
  dot_S1000x256_S256x256_S1000x256_1_0_0_1_n_n.lhsIdx_val_of_single rfl i q
theorem rhs_0 (i : S1000x256.Idx) (q : dot_S1000x256_S256x256_S1000x256_1_0_0_1_n_n.contr.Idx) : (dot_S1000x256_S256x256_S1000x256_1_0_0_1_n_n.rhsIdx i q 0).val = (q ⟨0, by decide⟩).val :=
  dot_S1000x256_S256x256_S1000x256_1_0_0_1_n_n.rhsIdx_val_of_single rfl i q
theorem rhs_1 (i : S1000x256.Idx) (q : dot_S1000x256_S256x256_S1000x256_1_0_0_1_n_n.contr.Idx) : (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- A block of pooled rows times the weights, accumulated from zero: entry `(p, q)` is the sum over `k`. -/
theorem product_apply (h : FVec Ideal S1000x256 .f32) (p : Fin 1000) (q : Fin 256) :
    matmul dot_S1000x256_S256x256_S1000x256_1_0_0_1_n_n none h x2 (constant S1000x256 .f32 0x00000000#32) (ix2 p q) = ∑ k : Fin 256, h (ix2 p k) * x2 (ix2 k q) := by
  refine (Ideal.matmul_constant_zero_apply dot_S1000x256_S256x256_S1000x256_1_0_0_1_n_n none h x2 (ix2 p q)).trans ?_
  rw [← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 p q) ((ValueIdx.contrEquiv1 dot_S1000x256_S256x256_S1000x256_1_0_0_1_n_n 256 rfl rfl).symm k) = ix2 p k := funext fun a => Fin.ext (by
    match a with
    | ⟨0, _⟩ => exact lhs_0 _ _
    | ⟨1, _⟩ => exact (lhs_1 _ _).trans hk)
  have er : dot_S1000x256_S256x256_S1000x256_1_0_0_1_n_n.rhsIdx (ix2 p q) ((ValueIdx.contrEquiv1 dot_S1000x256_S256x256_S1000x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-! ## The stored value at an entry -/

/-- Row `p`, column `q` of what the body stores: the first stage's row function at the block's row `p`. -/
theorem pay_apply (p : Fin 1000) (q : Fin 256) :
    k0_pay1 (F := Ideal) x0 x1 x2 x3 (ix2 p q)
      = Cert.Spec.layer1K (fun l => x0 (ix2 p l)) (fun l d => x1 (ix3 p l d)) (fun k q' => x2 (ix2 k q')) (x3 (ix2 p 0)) q := by
  rw [pay_eq]
  show matmul dot_S1000x256_S256x256_S1000x256_1_0_0_1_n_n none (pooled x0 x1) x2 (constant S1000x256 .f32 0x00000000#32) (ix2 p q)
      * broadcastTo S1000x256 (shapeCast S1000x1 x3 shapeCasts_S1000x1_S1000x1) broadcasts_S1000x1_S1000x256 (ix2 p q) = _
  rw [product_apply, spread_col_apply, shapeCast_self]
  unfold Cert.Spec.layer1K Cert.Spec.dense
  refine congrArg (· * x3 (ix2 p 0)) (Finset.sum_congr rfl fun k _ => ?_)
  rw [pooled_apply]

end Cert.KRegion0

end
-- ==== Proof.Region0.lean ====
/-
  The first region of the kernel program, read as one whole-array function.

  The region walks the 50000 nodes in fifty blocks of 1000.  At each block it stores, for every node of the block and
  every one of the 256 output columns, the node's pooled features (the weighted mean of its 32 gathered rows, then
  their entrywise maximum) times that column of the weight matrix, scaled by the node's source norm.  Here: each of
  the four input blocks read at the place in its array that the output block's position names (the token ids and the
  gathered rows at the node's row of the whole arrays, all of the weight matrix, the norm at the node's row); hence
  what a grid point writes back is that point's block of one function of the four whole input arrays; the fifty
  blocks cover every row (row r lies in block r / 1000); so the output array ends as that function.
-/
import proofs.«164033_j9122510536818_2_alg».proof.Proof.Gen.KernelIdeal.Frame
import proofs.«164033_j9122510536818_2_alg».proof.Proof.Spec
import proofs.«164033_j9122510536818_2_alg».proof.Proof.Region0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion0A

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The first stage on whole arrays, weights applied before the sum: row `i 0` of the token ids and of the gathered
    rows, the whole weight matrix and the row's source norm give entry `i`. -/
abbrev pooledScaled (f : S50000x32.Idx → BitVec 32) (g : S50000x32x128.Idx → EReal) (W : S256x256.Idx → EReal)
    (s : S50000x1.Idx → EReal) : S50000x256.Idx → EReal :=
  fun i => Cert.Spec.layer1K (fun l => f (ix2 (i 0) l)) (fun l d => g (ix3 (i 0) l d)) (fun k q => W (ix2 k q))
    (s (ix2 (i 0) 0)) (i 1)

theorem zero_offsets : (![0, 0] : Fin 2 → Nat) = fun _ => 0 := funext fun a => by fin_cases a <;> rfl

theorem zero_offsets3 : (![0, 0, 0] : Fin 3 → Nat) = fun _ => 0 := funext fun a => by fin_cases a <;> rfl

/-- Where each window's block sits at grid point `t`: the four row-blocked windows at block `t` of their rows, every
    other coordinate of a block index zero. -/
theorem index_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One block's payload at row `p`, column `q` is the whole-array function at `i`, once the blocks hold along that
    row what the arrays hold along `i`'s row, the weight block is the weight matrix, and `q` is `i`'s column. -/
theorem payload_eq_of_reads (x0 : Vec Ideal S1000x32 .i32) (x1 : Vec Ideal S1000x32x128 .f32) (x2 : Vec Ideal S256x256 .f32)
    (x3 : Vec Ideal S1000x1 .f32)
    (f : S50000x32.Idx → BitVec 32) (g : S50000x32x128.Idx → EReal) (W : S256x256.Idx → EReal) (s : S50000x1.Idx → EReal)
    (p : Fin 1000) (q : Fin 256) (i : S50000x256.Idx)
    (h0 : ∀ l : Fin 32, x0 (ix2 p l) = f (ix2 (i 0) l))
    (h1 : ∀ (l : Fin 32) (d : Fin 128), x1 (ix3 p l d) = g (ix3 (i 0) l d))
    (h2 : ∀ k q' : Fin 256, x2 (ix2 k q') = W (ix2 k q'))
    (h3 : x3 (ix2 p 0) = s (ix2 (i 0) 0)) (hq : q.val = (i 1).val) :
    k0_pay1 (F := Ideal) x0 x1 x2 x3 (ix2 p q) = pooledScaled f g W s i := by
  have e0 : (fun l => x0 (ix2 p l)) = fun l => f (ix2 (i 0) l) := funext h0
  have e1 : (fun l d => x1 (ix3 p l d)) = fun l d => g (ix3 (i 0) l d) := funext fun l => funext fun d => h1 l d
  have e2 : (fun k q' => x2 (ix2 k q')) = fun k q' => W (ix2 k q') := funext fun k => funext fun q' => h2 k q'
  have e3 : q = i 1 := Fin.ext hq
  rw [Cert.KRegion0.pay_apply, e0, e1, e2, h3, e3]

/-- What grid point `t` writes back is block `t` of the whole-array function of the region's input arrays. -/
theorem flushed_eq (c : Dev nD) (t : Fin cfg0.N) :
    (dat0 (F := Ideal) V c).flushed 4 t
      = ((cfg0.win 4).blk t).view.read (Elt Ideal)
          (pooledScaled (V c main_arg0) (V c main_v26) (V c main_arg4) (V c main_v13)) := by
  show (cfg0.win 4).cut (grid0.coords t) ((dat0 (F := Ideal) V c).after 4 t) = _
  rw [after0_4]
  unfold out0_4
  rw [View.canon_unit_zero zero_offsets]
  simp only [View.ld_unit_zero (S := S1000x32) zero_offsets, View.ld_unit_zero (S := S1000x32x128) zero_offsets3,
    View.ld_unit_zero (S := S256x256) zero_offsets, View.ld_unit_zero (S := S1000x1) zero_offsets]
  obtain ⟨a0, a1, b0, b1, b2, c0, c1, d0, d1, e0, e1⟩ := index_facts t
  funext j
  show k0_pay1 (iblk0 V c 0 t) (iblk0 V c 1 t) (iblk0 V c 2 t) (iblk0 V c 3 t) j
      = pooledScaled (V c main_arg0) (V c main_v26) (V c main_arg4) (V c main_v13) (((cfg0.win 4).blk t).view.emb j)
  have hp : (j 0).val < 1000 := (j 0).isLt
  have hq : (j 1).val < 256 := (j 1).isLt
  refine (congrArg (k0_pay1 (iblk0 V c 0 t) (iblk0 V c 1 t) (iblk0 V c 2 t) (iblk0 V c 3 t))
    (eq_ix2 (n0 := 1000) (n1 := 256) j)).trans ?_
  refine payload_eq_of_reads _ _ _ _ _ _ _ _ (j 0) (j 1) _ ?_ ?_ ?_ ?_ ?_
  · intro l
    show V c main_arg0 (((cfg0.win 0).blk t).view.emb (ix2 (j 0) l)) = V c main_arg0 _
    refine congrArg (V c main_arg0) (funext fun a => Fin.ext ?_)
    match a with
    | ⟨0, _⟩ => show win0_0.index t (0 : Fin 2) * 1000 + 1 * (j 0).val = win0_4.index t (0 : Fin 2) * 1000 + 1 * (j 0).val; omega
    | ⟨1, _⟩ => show win0_0.index t (1 : Fin 2) * 32 + 1 * l.val = l.val; omega
  · intro l d
    show V c main_v26 (((cfg0.win 1).blk t).view.emb (ix3 (j 0) l d)) = V c main_v26 _
    refine congrArg (V c main_v26) (funext fun a => Fin.ext ?_)
    match a with
    | ⟨0, _⟩ => show win0_1.index t (0 : Fin 3) * 1000 + 1 * (j 0).val = win0_4.index t (0 : Fin 2) * 1000 + 1 * (j 0).val; omega
    | ⟨1, _⟩ => show win0_1.index t (1 : Fin 3) * 32 + 1 * l.val = l.val; omega
    | ⟨2, _⟩ => show win0_1.index t (2 : Fin 3) * 128 + 1 * d.val = d.val; omega
  · intro k q'
    show V c main_arg4 (((cfg0.win 2).blk t).view.emb (ix2 k q')) = V c main_arg4 _
    refine congrArg (V c main_arg4) (funext fun a => Fin.ext ?_)
    match a with
    | ⟨0, _⟩ => show win0_2.index t (0 : Fin 2) * 256 + 1 * k.val = k.val; omega
    | ⟨1, _⟩ => show win0_2.index t (1 : Fin 2) * 256 + 1 * q'.val = q'.val; omega
  · show V c main_v13 (((cfg0.win 3).blk t).view.emb (ix2 (j 0) 0)) = V c main_v13 _
    refine congrArg (V c main_v13) (funext fun a => Fin.ext ?_)
    match a with
    | ⟨0, _⟩ => show win0_3.index t (0 : Fin 2) * 1000 + 1 * (j 0).val = win0_4.index t (0 : Fin 2) * 1000 + 1 * (j 0).val; omega
    | ⟨1, _⟩ => show win0_3.index t (1 : Fin 2) * 1 + 1 * 0 = 0; omega
  · show (j 1).val = win0_4.index t (1 : Fin 2) * 256 + 1 * (j 1).val
    omega

/-- An index of the array is in point `t`'s block iff each coordinate is in the block's range on its axis. -/
theorem mem_block (t : Fin cfg0.N) (i : S50000x256.Idx) :
    i ∈ ((cfg0.win 4).blk t).view.set ↔ ∀ a : Fin 2, win0_4.index t a * S1000x256.size a ≤ (i a).val
      ∧ (i a).val < win0_4.index t a * S1000x256.size a + S1000x256.size a := by
  show i ∈ ((View.whole main_v27).slice (win0_4.rect t)).set ↔ _
  rw [View.set_slice_whole, Rect.mem_set_unit]
  exact Iff.rfl

/-- Every row is in some point's block: row `r` in that of point `r / 1000`. -/
theorem covered (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ : ∃ t : Fin cfg0.N, t.val = (i 0).val / 1000 :=
    ⟨⟨(i 0).val / 1000, by show _ < grid0.N; rw [N_0]; omega⟩, rfl⟩
  obtain ⟨-, -, -, -, -, -, -, -, -, e0, e1⟩ := index_facts t
  refine ⟨t, flush0_4 t, ?_⟩
  rw [mem_block]
  intro a
  match a with
  | ⟨0, _⟩ => show win0_4.index t (0 : Fin 2) * 1000 ≤ (i 0).val ∧ (i 0).val < win0_4.index t (0 : Fin 2) * 1000 + 1000; omega
  | ⟨1, _⟩ => show win0_4.index t (1 : Fin 2) * 256 ≤ (i 1).val ∧ (i 1).val < win0_4.index t (1 : Fin 2) * 256 + 256; omega

/-- The array the region leaves in its output window after all fifty grid points. -/
theorem value (c : Dev nD) :
    (dat0 (F := Ideal) V c).arrAt 4 cfg0.N
      = pooledScaled (V c main_arg0) (V c main_v26) (V c main_arg4) (V c main_v13) :=
  (dat0 (F := Ideal) V c).arrAt_eq_of_cover 4 (pooledScaled (V c main_arg0) (V c main_v26) (V c main_arg4) (V c main_v13))
    (fun t _ => flushed_eq V c t) covered

end Cert.KRegion0A

end
-- ==== Proof.Region1.lean ====
/-
  The middle region of the kernel program, read as one whole-array function.

  The region walks the 50000 rows in ten blocks of 5000.  At each block it scales every entry of the aggregate by its
  row's target norm, adds its column's bias, floors the result at 0, multiplies the block by the 256 by 40 weights
  (a product accumulated into zeros, so just the sum over the 256 contracted entries) and scales each row by its
  source norm: one row of the second stage.  Here: that payload at a row and a column of a block; each of the five
  input blocks read at the place in its array that the output block's position names (the bias and the weights are
  whole at every point); hence what a grid point writes back is that point's block of one function of the five whole
  input arrays; the ten blocks cover every row (row r lies in block r / 5000); so the output array ends as that
  function.
-/
import proofs.«164033_j9122510536818_2_alg».proof.Proof.Gen.KernelIdeal.Frame
import proofs.«164033_j9122510536818_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The second stage on whole arrays, row by row: the norms and the bias as the one-column and one-row arrays the
    region reads. -/
abbrev secondLayer (A : S50000x256.Idx → EReal) (D : S50000x1.Idx → EReal) (B : S1x256.Idx → EReal)
    (W : S256x40.Idx → EReal) (S : S50000x1.Idx → EReal) : S50000x40.Idx → EReal :=
  fun i => Cert.Spec.layer2 (fun k => A (ix2 (i 0) k)) (D (ix2 (i 0) 0)) (fun k => B (ix2 0 k))
    (fun k q => W (ix2 k q)) (S (ix2 (i 0) 0)) (i 1)

theorem zero_offsets : (![0, 0] : Fin 2 → Nat) = fun _ => 0 := funext fun a => by fin_cases a <;> rfl

/-- One block of the hidden activation: the aggregate scaled by the target norm, plus the bias, floored at 0. -/
def hiddenBlock (x0 : Vec Ideal S5000x256 .f32) (x1 : Vec Ideal S5000x1 .f32) (x2 : Vec Ideal S1x256 .f32) :
    FVec Ideal S5000x256 .f32 :=
  maximumf
    (addf (mulf (shapeCast S5000x256 x0 shapeCasts_S5000x256_S5000x256)
        (broadcastTo S5000x256 (shapeCast S5000x1 x1 shapeCasts_S5000x1_S5000x1) broadcasts_S5000x1_S5000x256))
      (broadcastTo S5000x256 (shapeCast S1x256 x2 shapeCasts_S1x256_S1x256) broadcasts_S1x256_S5000x256))
    (broadcast S5000x256 (Scalar.ofBits (F := Ideal) .f32 0x00000000#32))

/-- The payload is the hidden block times the weights, summed into the zero splat, scaled by the source norm. -/
theorem payload_eq (x0 : Vec Ideal S5000x256 .f32) (x1 : Vec Ideal S5000x1 .f32) (x2 : Vec Ideal S1x256 .f32)
    (x3 : Vec Ideal S256x40 .f32) (x4 : Vec Ideal S5000x1 .f32) :
    k1_pay1 x0 x1 x2 x3 x4
      = mulf (matmul (φ₁ := .f32) (φ₂ := .f32) dot_S5000x256_S256x40_S5000x40_1_0_0_1_n_n none (hiddenBlock x0 x1 x2) x3
            (constant (F := Ideal) S5000x40 .f32 0x00000000#32))
          (broadcastTo S5000x40 (shapeCast S5000x1 x4 shapeCasts_S5000x1_S5000x1) broadcasts_S5000x1_S5000x40) := rfl

/-- The hidden block at row `p`, entry `k`. -/
theorem hiddenBlock_apply (x0 : Vec Ideal S5000x256 .f32) (x1 : Vec Ideal S5000x1 .f32) (x2 : Vec Ideal S1x256 .f32)
    (p : Fin 5000) (k : Fin 256) :
    hiddenBlock x0 x1 x2 (ix2 p k)
      = Cert.Spec.hidden (fun k => x0 (ix2 p k)) (x1 (ix2 p 0)) (fun k => x2 (ix2 0 k)) k := by
  unfold hiddenBlock Cert.Spec.hidden
  rw [maximumf_apply, addf_apply, mulf_apply, shapeCast_self, shapeCast_self, shapeCast_self, broadcast_apply]
  rw [broadcastTo_apply x1 _ (ix2 p k) (ix2 p 0) (fun a => by match a with | ⟨0, _⟩ => rfl | ⟨1, _⟩ => rfl),
    broadcastTo_apply x2 _ (ix2 p k) (ix2 0 k) (fun a => by match a with | ⟨0, _⟩ => rfl | ⟨1, _⟩ => rfl)]
  rfl

/-- The left operand's row is the output's row, whatever the contracted index. -/
theorem lhs_row (i : S5000x40.Idx) (κ : dot_S5000x256_S256x40_S5000x40_1_0_0_1_n_n.contr.Idx) :
    (dot_S5000x256_S256x40_S5000x40_1_0_0_1_n_n.lhsIdx i κ 0).val = (i 0).val := by
  unfold DotDims.lhsIdx
  rw [dif_neg (show ¬(0 : Fin S5000x256.rank) ∈ dot_S5000x256_S256x40_S5000x40_1_0_0_1_n_n.lhsBatch by decide),
    dif_pos (show (0 : Fin S5000x256.rank) ∈ dot_S5000x256_S256x40_S5000x40_1_0_0_1_n_n.lhsNonContracting by decide)]
  rfl

/-- The right operand's column is the output's column, whatever the contracted index. -/
theorem rhs_col (i : S5000x40.Idx) (κ : dot_S5000x256_S256x40_S5000x40_1_0_0_1_n_n.contr.Idx) :
    (dot_S5000x256_S256x40_S5000x40_1_0_0_1_n_n.rhsIdx i κ 1).val = (i 1).val := by
  unfold DotDims.rhsIdx
  rw [dif_neg (show ¬(1 : Fin S256x40.rank) ∈ dot_S5000x256_S256x40_S5000x40_1_0_0_1_n_n.rhsBatch by decide),
    dif_pos (show (1 : Fin S256x40.rank) ∈ dot_S5000x256_S256x40_S5000x40_1_0_0_1_n_n.rhsNonContracting by decide)]
  rfl

/-- A block of 5000 rows times the 256 by 40 weights, into the zero splat: at row `p`, column `q`, the sum over the
    256 contracted entries. -/
theorem matmul_zero_apply (h : FVec Ideal S5000x256 .f32) (w : FVec Ideal S256x40 .f32) (p : Fin 5000) (q : Fin 40) :
    matmul dot_S5000x256_S256x40_S5000x40_1_0_0_1_n_n none h w (constant (F := Ideal) S5000x40 .f32 0x00000000#32)
        (ix2 p q)
      = ∑ k : Fin 256, h (ix2 p k) * w (ix2 k q) := by
  refine (Ideal.matmul_constant_zero_apply dot_S5000x256_S256x40_S5000x40_1_0_0_1_n_n none h w (ix2 p q)).trans ?_
  rw [← Equiv.sum_comp (contrEquiv1 dot_S5000x256_S256x40_S5000x40_1_0_0_1_n_n 256 rfl rfl).symm]
  refine Finset.sum_congr rfl fun k _ => ?_
  have hk := contrEquiv1_symm_val dot_S5000x256_S256x40_S5000x40_1_0_0_1_n_n 256 rfl rfl k
  have el : dot_S5000x256_S256x40_S5000x40_1_0_0_1_n_n.lhsIdx (ix2 p q)
      ((contrEquiv1 dot_S5000x256_S256x40_S5000x40_1_0_0_1_n_n 256 rfl rfl).symm k) = ix2 p k :=
    funext fun a => Fin.ext (by
      match a with
      | ⟨0, _⟩ => exact lhs_row _ _
      | ⟨1, _⟩ => exact (dot_S5000x256_S256x40_S5000x40_1_0_0_1_n_n.lhsIdx_val_of_single rfl _ _).trans hk)
  have er : dot_S5000x256_S256x40_S5000x40_1_0_0_1_n_n.rhsIdx (ix2 p q)
      ((contrEquiv1 dot_S5000x256_S256x40_S5000x40_1_0_0_1_n_n 256 rfl rfl).symm k) = ix2 k q :=
    funext fun a => Fin.ext (by
      match a with
      | ⟨0, _⟩ => exact (dot_S5000x256_S256x40_S5000x40_1_0_0_1_n_n.rhsIdx_val_of_single rfl _ _).trans hk
      | ⟨1, _⟩ => exact rhs_col _ _)
  rw [el, er]

/-- One block's payload at row `p`, column `q`: one row of the second stage. -/
theorem payload_apply (x0 : Vec Ideal S5000x256 .f32) (x1 : Vec Ideal S5000x1 .f32) (x2 : Vec Ideal S1x256 .f32)
    (x3 : Vec Ideal S256x40 .f32) (x4 : Vec Ideal S5000x1 .f32) (p : Fin 5000) (q : Fin 40) :
    k1_pay1 x0 x1 x2 x3 x4 (ix2 p q)
      = Cert.Spec.layer2 (fun k => x0 (ix2 p k)) (x1 (ix2 p 0)) (fun k => x2 (ix2 0 k)) (fun k r => x3 (ix2 k r))
          (x4 (ix2 p 0)) q := by
  rw [payload_eq, mulf_apply, matmul_zero_apply, shapeCast_self,
    broadcastTo_apply x4 _ (ix2 p q) (ix2 p 0) (fun a => by match a with | ⟨0, _⟩ => rfl | ⟨1, _⟩ => rfl)]
  unfold Cert.Spec.layer2 Cert.Spec.dense
  exact congrArg (· * x4 (ix2 p 0)) (Finset.sum_congr rfl fun k _ => by rw [hiddenBlock_apply])

/-- The printed index maps, decided once over the ten grid points: the row blocks move with the point, the bias and
    the weights stay. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- One block's payload at row `p`, column `q` is the whole-array function at `i`, once the five blocks hold at that
    row and column what the arrays hold at `i`'s. -/
theorem payload_eq_of_reads (x0 : Vec Ideal S5000x256 .f32) (x1 : Vec Ideal S5000x1 .f32) (x2 : Vec Ideal S1x256 .f32)
    (x3 : Vec Ideal S256x40 .f32) (x4 : Vec Ideal S5000x1 .f32)
    (A : S50000x256.Idx → EReal) (D : S50000x1.Idx → EReal) (B : S1x256.Idx → EReal) (W : S256x40.Idx → EReal)
    (S : S50000x1.Idx → EReal) (p : Fin 5000) (q : Fin 40) (i : S50000x40.Idx)
    (h0 : ∀ k : Fin 256, x0 (ix2 p k) = A (ix2 (i 0) k)) (h1 : x1 (ix2 p 0) = D (ix2 (i 0) 0))
    (h2 : ∀ k : Fin 256, x2 (ix2 0 k) = B (ix2 0 k)) (h3 : ∀ k : Fin 256, x3 (ix2 k q) = W (ix2 k (i 1)))
    (h4 : x4 (ix2 p 0) = S (ix2 (i 0) 0)) :
    k1_pay1 x0 x1 x2 x3 x4 (ix2 p q) = secondLayer A D B W S i := by
  rw [payload_apply]
  show Cert.Spec.dense _ _ _ q = Cert.Spec.dense _ _ _ (i 1)
  unfold Cert.Spec.dense
  rw [h4, h1, funext h0, funext h2]
  exact congrArg (· * S (ix2 (i 0) 0)) (Finset.sum_congr rfl fun k _ => by
    show _ * x3 (ix2 k q) = _ * W (ix2 k (i 1))
    rw [h3 k])

/-- What grid point `t` writes back is block `t` of the whole-array function of the region's input arrays. -/
theorem flushed_eq (c : Dev nD) (t : Fin cfg1.N) :
    (dat1 (F := Ideal) V c).flushed 5 t
      = ((cfg1.win 5).blk t).view.read (Elt Ideal)
          (secondLayer (V c main_v37) (V c main_v16) (V c main_v38) (V c main_arg6) (V c main_v13)) := by
  show (cfg1.win 5).cut (grid1.coords t) ((dat1 (F := Ideal) V c).after 5 t) = _
  rw [after1_5]
  unfold out1_5
  rw [View.canon_unit_zero zero_offsets]
  simp only [View.ld_unit_zero (S := S5000x256) zero_offsets, View.ld_unit_zero (S := S5000x1) zero_offsets,
    View.ld_unit_zero (S := S1x256) zero_offsets, View.ld_unit_zero (S := S256x40) zero_offsets]
  obtain ⟨e0, e1, e2, e3, e4, e5, e6, e7, e8, e9, e10, e11⟩ := index_facts t
  funext j
  show k1_pay1 (iblk1 V c 0 t) (iblk1 V c 1 t) (iblk1 V c 2 t) (iblk1 V c 3 t) (iblk1 V c 4 t) j
      = secondLayer (V c main_v37) (V c main_v16) (V c main_v38) (V c main_arg6) (V c main_v13)
          (((cfg1.win 5).blk t).view.emb j)
  have hp : (j 0).val < 5000 := (j 0).isLt
  have hq : (j 1).val < 40 := (j 1).isLt
  refine (congrArg (k1_pay1 (iblk1 V c 0 t) (iblk1 V c 1 t) (iblk1 V c 2 t) (iblk1 V c 3 t) (iblk1 V c 4 t))
    (eq_ix2 (n0 := 5000) (n1 := 40) j)).trans ?_
  refine payload_eq_of_reads _ _ _ _ _ _ _ _ _ _ (j 0) (j 1) _ (fun k => ?_) ?_ (fun k => ?_) (fun k => ?_) ?_
  · show V c main_v37 (((cfg1.win 0).blk t).view.emb (ix2 (j 0) k)) = V c main_v37 _
    refine congrArg (V c main_v37) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 256 + 1 * k.val = k.val; omega
  · show V c main_v16 (((cfg1.win 1).blk t).view.emb (ix2 (j 0) 0)) = V c main_v16 _
    refine congrArg (V c main_v16) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 1 + 1 * 0 = 0; omega
  · show V c main_v38 (((cfg1.win 2).blk t).view.emb (ix2 0 k)) = V c main_v38 _
    refine congrArg (V c main_v38) (funext fun a => Fin.ext ?_)
    match a with
    | ⟨0, _⟩ => show win1_2.index t (0 : Fin 2) * 1 + 1 * 0 = 0; omega
    | ⟨1, _⟩ => show win1_2.index t (1 : Fin 2) * 256 + 1 * k.val = k.val; omega
  · show V c main_arg6 (((cfg1.win 3).blk t).view.emb (ix2 k (j 1))) = V c main_arg6 _
    refine congrArg (V c main_arg6) (funext fun a => Fin.ext ?_)
    match a with
    | ⟨0, _⟩ => show win1_3.index t (0 : Fin 2) * 256 + 1 * k.val = k.val; omega
    | ⟨1, _⟩ => show win1_3.index t (1 : Fin 2) * 40 + 1 * (j 1).val = win1_5.index t (1 : Fin 2) * 40 + 1 * (j 1).val; omega
  · show V c main_v13 (((cfg1.win 4).blk t).view.emb (ix2 (j 0) 0)) = V c main_v13 _
    refine congrArg (V c main_v13) (funext fun a => Fin.ext ?_)
    match a with
    | ⟨0, _⟩ => show win1_4.index t (0 : Fin 2) * 5000 + 1 * (j 0).val = win1_5.index t (0 : Fin 2) * 5000 + 1 * (j 0).val; omega
    | ⟨1, _⟩ => show win1_4.index t (1 : Fin 2) * 1 + 1 * 0 = 0; omega

/-- An index of the array is in point `t`'s block iff each coordinate is in the block's range on its axis. -/
theorem mem_block (t : Fin cfg1.N) (i : S50000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v39).slice (win1_5.rect t)).set ↔ _
  rw [View.set_slice_whole, Rect.mem_set_unit]
  exact Iff.rfl

/-- Every row is in some point's block: row `r` in that of point `r / 5000`. -/
theorem covered (i : S50000x40.Idx) :
    ∃ t : Fin cfg1.N, (cfg1.win 5).flush t = true ∧ i ∈ ((cfg1.win 5).blk t).view.set := by
  have hi0 : (i 0).val < 50000 := (i 0).isLt
  have hi1 : (i 1).val < 40 := (i 1).isLt
  obtain ⟨t, ht⟩ : ∃ t : Fin cfg1.N, t.val = (i 0).val / 5000 :=
    ⟨⟨(i 0).val / 5000, by show _ < grid1.N; rw [N_1]; omega⟩, rfl⟩
  obtain ⟨-, -, -, -, -, -, -, -, -, -, e10, e11⟩ := index_facts t
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- The array the region leaves in its output window after all ten grid points. -/
theorem value (c : Dev nD) :
    (dat1 (F := Ideal) V c).arrAt 5 cfg1.N
      = secondLayer (V c main_v37) (V c main_v16) (V c main_v38) (V c main_arg6) (V c main_v13) :=
  (dat1 (F := Ideal) V c).arrAt_eq_of_cover 5
    (secondLayer (V c main_v37) (V c main_v16) (V c main_v38) (V c main_arg6) (V c main_v13))
    (fun t _ => flushed_eq V c t) covered

end Cert.KRegion1

end
-- ==== Proof.Region2.lean ====
/-
  The last region of the kernel program, read as one whole-array function.

  The region walks the 50000 rows in five blocks of 10000.  At each block it multiplies every entry of the aggregate by
  its row's target norm and adds its column's bias.  Here: that payload at a row and a column of a block; each of the
  three input blocks read at the place in its array that the output block's position names; hence what a grid point
  writes back is that point's block of one function of the three whole input arrays; the five blocks cover every row
  (row r lies in block r / 10000); so the output array ends as that function.
-/
import proofs.«164033_j9122510536818_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The last stage on whole arrays: the aggregate scaled by the target norm, plus the bias. -/
abbrev scaledPlusBias (a : S50000x40.Idx → EReal) (d : S50000x1.Idx → EReal) (b : S1x40.Idx → EReal) :
    S50000x40.Idx → EReal :=
  fun i => a (ix2 (i 0) (i 1)) * d (ix2 (i 0) 0) + b (ix2 0 (i 1))

theorem zero_offsets : (![0, 0] : Fin 2 → Nat) = fun _ => 0 := funext fun a => by fin_cases a <;> rfl

/-- One block's payload at row `p`, column `q`: the entry times the row's norm, plus the column's bias. -/
theorem payload_apply (x0 : Vec Ideal S10000x40 .f32) (x1 : Vec Ideal S10000x1 .f32) (x2 : Vec Ideal S1x40 .f32)
    (p : Fin 10000) (q : Fin 40) :
    k2_pay1 x0 x1 x2 (ix2 p q) = x0 (ix2 p q) * x1 (ix2 p 0) + x2 (ix2 0 q) := by
  unfold k2_pay1
  rw [addf_apply, mulf_apply, shapeCast_self, shapeCast_self, shapeCast_self]
  rw [broadcastTo_apply x1 _ (ix2 p q) (ix2 p 0) (fun a => by match a with | ⟨0, _⟩ => rfl | ⟨1, _⟩ => rfl),
    broadcastTo_apply x2 _ (ix2 p q) (ix2 0 q) (fun a => by match a with | ⟨0, _⟩ => rfl | ⟨1, _⟩ => rfl)]

theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One block's payload at row `p`, column `q` is the whole-array function at `i`, once the three blocks hold at
    that row and column what the arrays hold at `i`'s. -/
theorem payload_eq_of_reads (x0 : Vec Ideal S10000x40 .f32) (x1 : Vec Ideal S10000x1 .f32) (x2 : Vec Ideal S1x40 .f32)
    (A : S50000x40.Idx → EReal) (D : S50000x1.Idx → EReal) (B : S1x40.Idx → EReal)
    (p : Fin 10000) (q : Fin 40) (i : S50000x40.Idx)
    (h0 : x0 (ix2 p q) = A (ix2 (i 0) (i 1))) (h1 : x1 (ix2 p 0) = D (ix2 (i 0) 0))
    (h2 : x2 (ix2 0 q) = B (ix2 0 (i 1))) :
    k2_pay1 x0 x1 x2 (ix2 p q) = scaledPlusBias A D B i := by
  rw [payload_apply, h0, h1, h2]

/-- What grid point `t` writes back is block `t` of the whole-array function of the region's input arrays. -/
theorem flushed_eq (c : Dev nD) (t : Fin cfg2.N) :
    (dat2 (F := Ideal) V c).flushed 3 t
      = ((cfg2.win 3).blk t).view.read (Elt Ideal) (scaledPlusBias (V c main_v49) (V c main_v16) (V c main_v50)) := by
  show (cfg2.win 3).cut (grid2.coords t) ((dat2 (F := Ideal) V c).after 3 t) = _
  rw [after2_3]
  unfold out2_3
  rw [View.canon_unit_zero zero_offsets]
  simp only [View.ld_unit_zero (S := S10000x40) zero_offsets, View.ld_unit_zero (S := S10000x1) zero_offsets,
    View.ld_unit_zero (S := S1x40) zero_offsets]
  obtain ⟨e0, e1, e2, e3, e4, e5, e6, e7⟩ := index_facts t
  funext j
  show k2_pay1 (iblk2 V c 0 t) (iblk2 V c 1 t) (iblk2 V c 2 t) j
      = scaledPlusBias (V c main_v49) (V c main_v16) (V c main_v50) (((cfg2.win 3).blk t).view.emb j)
  have hp : (j 0).val < 10000 := (j 0).isLt
  have hq : (j 1).val < 40 := (j 1).isLt
  refine (congrArg (k2_pay1 (iblk2 V c 0 t) (iblk2 V c 1 t) (iblk2 V c 2 t)) (eq_ix2 (n0 := 10000) (n1 := 40) j)).trans ?_
  refine payload_eq_of_reads _ _ _ _ _ _ (j 0) (j 1) _ ?_ ?_ ?_
  · show V c main_v49 (((cfg2.win 0).blk t).view.emb (ix2 (j 0) (j 1))) = V c main_v49 _
    refine congrArg (V c main_v49) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 40 + 1 * (j 1).val = win2_3.index t (1 : Fin 2) * 40 + 1 * (j 1).val; omega
  · show V c main_v16 (((cfg2.win 1).blk t).view.emb (ix2 (j 0) 0)) = V c main_v16 _
    refine congrArg (V c main_v16) (funext fun a => Fin.ext ?_)
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 1 + 1 * 0 = 0; omega
  · show V c main_v50 (((cfg2.win 2).blk t).view.emb (ix2 0 (j 1))) = V c main_v50 _
    refine congrArg (V c main_v50) (funext fun a => Fin.ext ?_)
    match a with
    | ⟨0, _⟩ => show win2_2.index t (0 : Fin 2) * 1 + 1 * 0 = 0; omega
    | ⟨1, _⟩ => show win2_2.index t (1 : Fin 2) * 40 + 1 * (j 1).val = win2_3.index t (1 : Fin 2) * 40 + 1 * (j 1).val; omega

/-- An index of the array is in point `t`'s block iff each coordinate is in the block's range on its axis. -/
theorem mem_block (t : Fin cfg2.N) (i : S50000x40.Idx) :
    i ∈ ((cfg2.win 3).blk t).view.set ↔ ∀ a : Fin 2, win2_3.index t a * S10000x40.size a ≤ (i a).val
      ∧ (i a).val < win2_3.index t a * S10000x40.size a + S10000x40.size a := by
  show i ∈ ((View.whole main_v51).slice (win2_3.rect t)).set ↔ _
  rw [View.set_slice_whole, Rect.mem_set_unit]
  exact Iff.rfl

/-- Every row is in some point's block: row `r` in that of point `r / 10000`. -/
theorem covered (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, ht⟩ : ∃ t : Fin cfg2.N, t.val = (i 0).val / 10000 :=
    ⟨⟨(i 0).val / 10000, by show _ < grid2.N; rw [N_2]; omega⟩, rfl⟩
  obtain ⟨-, -, -, -, -, -, e6, e7⟩ := index_facts t
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 40 ≤ (i 1).val ∧ (i 1).val < win2_3.index t (1 : Fin 2) * 40 + 40; omega

/-- The array the region leaves in its output window after all five grid points. -/
theorem value (c : Dev nD) :
    (dat2 (F := Ideal) V c).arrAt 3 cfg2.N
      = scaledPlusBias (V c main_v49) (V c main_v16) (V c main_v50) :=
  (dat2 (F := Ideal) V c).arrAt_eq_of_cover 3 (scaledPlusBias (V c main_v49) (V c main_v16) (V c main_v50))
    (fun t _ => flushed_eq V c t) covered

end Cert.KRegion2

end
-- ==== Proof.KValue.lean ====
/-
  The idealized kernel program's result array as a function of its arguments.

  Boundary by boundary: the first pallas_call fills its result with the first stage (weights applied before the sum)
  of the token ids, the gathered embeddings, the first weight matrix and the source norm; one pass along the edges;
  the second pallas_call fills its result with the second stage of that aggregate, the target norm, the first bias,
  the second weight matrix and the source norm; a second pass; the third pallas_call scales by the target norm and
  adds the second bias.  Each pallas_call reads the norms as one-column arrays and the biases as one-row arrays; read
  at an entry these are the vectors' entries.
-/
import proofs.«164033_j9122510536818_2_alg».proof.Proof.Gen.KernelIdeal.Frame
import proofs.«164033_j9122510536818_2_alg».proof.Proof.Spec
import proofs.«164033_j9122510536818_2_alg».proof.Proof.KHost
import proofs.«164033_j9122510536818_2_alg».proof.Proof.Region0
import proofs.«164033_j9122510536818_2_alg».proof.Proof.Region1
import proofs.«164033_j9122510536818_2_alg».proof.Proof.Region2
import Idealize.ShloMosaic.Lib.Pipeline.Value
import Idealize.ShloMosaic.Lib.ValueLayout

set_option maxRecDepth 16384

noncomputable section

namespace Cert.KSide

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window BodyObligation cellOf)

variable (m : (ℓ : Loc nD τ sig) → Buf (Elt Ideal) ℓ) (ρ : Dev nD → PrngReg)

/-! ## Each pallas_call's array function as a stage of the specification -/

theorem first_congr (f f' : S50000x32.Idx → BitVec 32) (g g' : S50000x32x128.Idx → EReal) (W W' : S256x256.Idx → EReal)
    (s : S50000x1.Idx → EReal) (nS : S50000.Idx → EReal) (hf : f = f') (hg : g = g') (hW : W = W')
    (hs : ∀ p : Fin 50000, s (ix2 p 0) = nS (ix1 p)) :
    Cert.KRegion0A.pooledScaled f g W s = Cert.Spec.stage1K f' g' W' nS := by
  subst hf hg hW
  funext i
  show Cert.Spec.layer1K (fun l => f (ix2 (i 0) l)) (fun l d => g (ix3 (i 0) l d)) (fun k q => W (ix2 k q)) (s (ix2 (i 0) 0)) (i 1)
      = Cert.Spec.layer1K (fun l => f (ix2 (i 0) l)) (fun l d => g (ix3 (i 0) l d)) (fun k q => W (ix2 k q)) (nS (ix1 (i 0))) (i 1)
  rw [hs (i 0)]

theorem mid_congr (a a' : S50000x256.Idx → EReal) (d : S50000x1.Idx → EReal) (b : S1x256.Idx → EReal) (W W' : S256x40.Idx → EReal)
    (s : S50000x1.Idx → EReal) (nD nS : S50000.Idx → EReal) (x5 : S256.Idx → EReal) (ha : a = a')
    (hd : ∀ p : Fin 50000, d (ix2 p 0) = nD (ix1 p)) (hb : ∀ k : Fin 256, b (ix2 0 k) = x5 (ix1 k)) (hW : W = W')
    (hs : ∀ p : Fin 50000, s (ix2 p 0) = nS (ix1 p)) :
    Cert.KRegion1.secondLayer a d b W s = Cert.Spec.stage2 a' nD x5 W' nS := by
  subst ha hW
  funext i
  show Cert.Spec.layer2 (fun k => a (ix2 (i 0) k)) (d (ix2 (i 0) 0)) (fun k => b (ix2 0 k)) (fun k q => W (ix2 k q)) (s (ix2 (i 0) 0)) (i 1)
      = Cert.Spec.layer2 (fun k => a (ix2 (i 0) k)) (nD (ix1 (i 0))) (fun k => x5 (ix1 k)) (fun k q => W (ix2 k q)) (nS (ix1 (i 0))) (i 1)
  rw [hd (i 0), hs (i 0), show (fun k : Fin 256 => b (ix2 0 k)) = (fun k => x5 (ix1 k)) from funext hb]

theorem last_congr (a a' : S50000x40.Idx → EReal) (d : S50000x1.Idx → EReal) (b : S1x40.Idx → EReal) (nD : S50000.Idx → EReal)
    (x7 : S40.Idx → EReal) (ha : a = a') (hd : ∀ p : Fin 50000, d (ix2 p 0) = nD (ix1 p)) (hb : ∀ q : Fin 40, b (ix2 0 q) = x7 (ix1 q)) :
    Cert.KRegion2.scaledPlusBias a d b = Cert.Spec.stage3 a' nD x7 := by
  subst ha
  funext i
  show a (ix2 (i 0) (i 1)) * d (ix2 (i 0) 0) + b (ix2 0 (i 1)) = a (ix2 (i 0) (i 1)) * nD (ix1 (i 0)) + x7 (ix1 (i 1))
  rw [hd (i 0), hb (i 1)]

/-! ## The boundaries in turn -/

/-- After the first pallas_call: its result is the first stage. -/
theorem W2_v27 (c : Dev nD) : W2 m ρ c (Proc.devRef .tc main_v27)
    = Cert.Spec.stage1K (m ((c : Thread nD τ).loc main_arg0)) (Cert.Spec.gathered (m ((c : Thread nD τ).loc main_arg0)) (m ((c : Thread nD τ).loc main_arg3))) (m ((c : Thread nD τ).loc main_arg4)) (Cert.Spec.norm (m ((c : Thread nD τ).loc main_arg1))) :=
  (W2_arr m ρ c 4).trans ((Cert.KRegion0A.value (V1 m ρ) c).trans
    (first_congr _ _ _ _ _ _ _ _ (W1_arg0 m ρ c) (W1_v26 m ρ c) (W1_arg4 m ρ c) (fun p => W1_v13 m ρ c p 0)))

/-- After the first pass along the edges. -/
theorem W3_v37_eq (c : Dev nD) : W3 m ρ c (Proc.devRef .tc main_v37)
    = Cert.Spec.pass256 (Cert.Spec.stage1K (m ((c : Thread nD τ).loc main_arg0)) (Cert.Spec.gathered (m ((c : Thread nD τ).loc main_arg0)) (m ((c : Thread nD τ).loc main_arg3))) (m ((c : Thread nD τ).loc main_arg4)) (Cert.Spec.norm (m ((c : Thread nD τ).loc main_arg1))))
        (m ((c : Thread nD τ).loc main_arg1)) (m ((c : Thread nD τ).loc main_arg2)) := by
  refine (W3_v37 m ρ c).trans ?_
  rw [W2_v27, W2_arg1, W1_arg1, W2_arg2, W1_arg2]

/-- After the second pallas_call: its result is the second stage. -/
theorem W4_v39 (c : Dev nD) : W4 m ρ c (Proc.devRef .tc main_v39)
    = Cert.Spec.stage2 (Cert.Spec.pass256 (Cert.Spec.stage1K (m ((c : Thread nD τ).loc main_arg0)) (Cert.Spec.gathered (m ((c : Thread nD τ).loc main_arg0)) (m ((c : Thread nD τ).loc main_arg3))) (m ((c : Thread nD τ).loc main_arg4)) (Cert.Spec.norm (m ((c : Thread nD τ).loc main_arg1))))
        (m ((c : Thread nD τ).loc main_arg1)) (m ((c : Thread nD τ).loc main_arg2))) (Cert.Spec.norm (m ((c : Thread nD τ).loc main_arg2))) (m ((c : Thread nD τ).loc main_arg5)) (m ((c : Thread nD τ).loc main_arg6)) (Cert.Spec.norm (m ((c : Thread nD τ).loc main_arg1))) := by
  refine (W4_arr m ρ c 5).trans ((Cert.KRegion1.value (V3 m ρ) c).trans ?_)
  refine mid_congr _ _ _ _ _ _ _ _ _ _ (W3_v37_eq m ρ c) (fun p => ?_) (fun k => ?_) ?_ (fun p => ?_)
  · exact (congrFun ((W3_v16 m ρ c).trans (W2_v16 m ρ c)) (ix2 p 0)).trans (W1_v16 m ρ c p 0)
  · refine Eq.trans (congrFun (W3_v38_eq m ρ c) (ix2 0 k)) ?_
    rw [shapeCast_a_1a_apply, W2_arg5, W1_arg5]
  · exact (W3_arg6 m ρ c).trans ((W2_arg6 m ρ c).trans (W1_arg6 m ρ c))
  · exact (congrFun ((W3_v13 m ρ c).trans (W2_v13 m ρ c)) (ix2 p 0)).trans (W1_v13 m ρ c p 0)

/-- At the return: the result array is the whole function of the arguments. -/
theorem value (c : Dev nD) : W6 m ρ c (Proc.devRef .tc main_v51)
    = Cert.Spec.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Cert.Spec.outK Cert.Spec.rest
  refine (W6_arr m ρ c 3).trans ((Cert.KRegion2.value (V5 m ρ) c).trans ?_)
  refine last_congr _ _ _ _ _ _ ?_ (fun p => ?_) (fun q => ?_)
  · refine (W5_v49 m ρ c).trans ?_
    rw [W4_v39, W4_arg1, W3_arg1, W2_arg1, W1_arg1, W4_arg2, W3_arg2, W2_arg2, W1_arg2]
  · refine Eq.trans (congrFun (((W5_v16 m ρ c).trans (W4_v16 m ρ c)).trans ((W3_v16 m ρ c).trans (W2_v16 m ρ c))) (ix2 p 0)) ?_
    exact W1_v16 m ρ c p 0
  · refine Eq.trans (congrFun (W5_v50_eq m ρ c) (ix2 0 q)) ?_
    rw [shapeCast_a_1a_apply, W4_arg7, W3_arg7, W2_arg7, W1_arg7]

end Cert.KSide

end
-- ==== Proof.RefFold.lean ====
import proofs.«164033_j9122510536818_2_alg».proof.Proof.RefRunP
import proofs.«164033_j9122510536818_2_alg».proof.Proof.RefReadP

noncomputable section

namespace Cert.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! The reference's run, read back: the contents of the result buffer after the 103 host operations, from any starting
contents, is the composed stage function of the starting contents of the eight arguments; the arguments keep theirs.
The list is read in four stretches — up to the two halves of a node's feature vector, from their concatenation to the
first layer's pre-activation, the inlined call's three operations (the maximum with zero), the second layer — each
from arbitrary starting contents, so that no stretch's term is opened while another is read. -/

/-- Folding a concatenation is folding the second list from where the first ends. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations up to the mean and the maximum of a node's gathered rows (and the two degree norms). -/
abbrev P1a : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (maximumf : (⟨S50000, .f32⟩ : BufTy).Contents (Elt F) → (⟨S50000, .f32⟩ : BufTy).Contents (Elt F) → (⟨S50000, .f32⟩ : BufTy).Contents (Elt F)),
    nullary main_cst_2 (constant S_ .f32 0x00000000#32),
    unary main_cst_2 main_v6 (broadcastInDim S50000 ![] bcast_S_S50000 : (⟨S_, .f32⟩ : BufTy).Contents (Elt F) → (⟨S50000, .f32⟩ : BufTy).Contents (Elt F)),
    unary main_arg2 main_v7 (broadcastInDim S800000x1 ![0] bcast_S800000_S800000x1_0 : (⟨S800000, .i32⟩ : BufTy).Contents (Elt F) → (⟨S800000x1, .i32⟩ : BufTy).Contents (Elt F)),
    ternary main_v6 main_v7 main_v0 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v9 (broadcastInDim S50000 ![] bcast_S_S50000 : (⟨S_, .f32⟩ : BufTy).Contents (Elt F) → (⟨S50000, .f32⟩ : BufTy).Contents (Elt F)),
    binary main_v8 main_v9 main_v10 (maximumf : (⟨S50000, .f32⟩ : BufTy).Contents (Elt F) → (⟨S50000, .f32⟩ : BufTy).Contents (Elt F) → (⟨S50000, .f32⟩ : BufTy).Contents (Elt F)),
    nullary main_cst_4 (constant S_ .f32 0xBF000000#32),
    unary main_cst_4 main_v11 (broadcastInDim S50000 ![] bcast_S_S50000 : (⟨S_, .f32⟩ : BufTy).Contents (Elt F) → (⟨S50000, .f32⟩ : BufTy).Contents (Elt F)),
    binary main_v5 main_v11 main_v12 (Host.powf : (⟨S50000, .f32⟩ : BufTy).Contents (Elt F) → (⟨S50000, .f32⟩ : BufTy).Contents (Elt F) → (⟨S50000, .f32⟩ : BufTy).Contents (Elt F)),
    nullary main_cst_5 (constant S_ .f32 0xBF000000#32),
    unary main_cst_5 main_v13 (broadcastInDim S50000 ![] bcast_S_S50000 : (⟨S_, .f32⟩ : BufTy).Contents (Elt F) → (⟨S50000, .f32⟩ : BufTy).Contents (Elt F)),
    binary main_v10 main_v13 main_v14 (Host.powf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v15 (broadcastInDim S1 ![] bcast_S_S1 : (⟨S_, .i32⟩ : BufTy).Contents (Elt F) → (⟨S1, .i32⟩ : BufTy).Contents (Elt F)),
    nullary main_cst_6 (constant S_ .f32 0x00000000#32),
    unary main_cst_6 main_v16 (broadcastInDim S128 ![] bcast_S_S128 : (⟨S_, .f32⟩ : BufTy).Contents (Elt F) → (⟨S128, .f32⟩ : BufTy).Contents (Elt F)),
    ternary main_arg3 main_v15 main_v16 main_v17 ((fun x i u => Host.scatter scatter_S100000x128_S1_S128_0_0_0_0 (fun _ b => b) x i u) : (⟨S100000x128, .f32⟩ : BufTy).Contents (Elt F) → (⟨S1, .i32⟩ : BufTy).Contents (Elt F) → (⟨S128, .f32⟩ : BufTy).Contents (Elt F) → (⟨S100000x128, .f32⟩ : BufTy).Contents (Elt F)),
    nullary main_c_7 (constantI S_ 32 0#32),
    unary main_c_7 main_v18 (broadcastInDim S50000x32 ![] bcast_S_S50000x32 : (⟨S_, .i32⟩ : BufTy).Contents (Elt F) → (⟨S50000x32, .i32⟩ : BufTy).Contents (Elt F)),
    binary main_arg0 main_v18 main_v19 (cmpi .slt : (⟨S50000x32, .i32⟩ : BufTy).Contents (Elt F) → (⟨S50000x32, .i32⟩ : BufTy).Contents (Elt F) → (⟨S50000x32, .i1⟩ : BufTy).Contents (Elt F)),
    nullary main_c_8 (constantI S_ 32 100000#32),
    unary main_c_8 main_v20 (broadcastInDim S50000x32 ![] bcast_S_S50000x32 : (⟨S_, .i32⟩ : BufTy).Contents (Elt F) → (⟨S50000x32, .i32⟩ : BufTy).Contents (Elt F)),
    binary main_arg0 main_v20 main_v21 (addi : (⟨S50000x32, .i32⟩ : BufTy).Contents (Elt F) → (⟨S50000x32, .i32⟩ : BufTy).Contents (Elt F) → (⟨S50000x32, .i32⟩ : BufTy).Contents (Elt F)),
    ternary main_v19 main_v21 main_arg0 main_v22 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    unary main_v22 main_v23 (broadcastInDim S50000x32x1 ![0, 1] bcast_S50000x32_S50000x32x1_0_1 : (⟨S50000x32, .i32⟩ : BufTy).Contents (Elt F) → (⟨S50000x32x1, .i32⟩ : BufTy).Contents (Elt F)),
    binary main_v17 main_v23 main_v24 ((fun x i => Host.gather gather_S100000x128_S50000x32x1_S50000x32x128_2_0_n_n_0_2_1128 x i) : (⟨S100000x128, .f32⟩ : BufTy).Contents (Elt F) → (⟨S50000x32x1, .i32⟩ : BufTy).Contents (Elt F) → (⟨S50000x32x128, .f32⟩ : BufTy).Contents (Elt F)),
    nullary main_c_9 (constantI S_ 32 0#32),
    unary main_c_9 main_v25 (broadcastInDim S50000x32 ![] bcast_S_S50000x32 : (⟨S_, .i32⟩ : BufTy).Contents (Elt F) → (⟨S50000x32, .i32⟩ : BufTy).Contents (Elt F)),
    binary main_arg0 main_v25 main_v26 (cmpi .ne : (⟨S50000x32, .i32⟩ : BufTy).Contents (Elt F) → (⟨S50000x32, .i32⟩ : BufTy).Contents (Elt F) → (⟨S50000x32, .i1⟩ : BufTy).Contents (Elt F)),
    unary main_v26 main_v27 ((extui 32 · natLt_1_32) : (⟨S50000x32, .i1⟩ : BufTy).Contents (Elt F) → (⟨S50000x32, .i32⟩ : BufTy).Contents (Elt F)),
    nullary main_c_10 (constantI S_ 32 0#32),
    binary main_v27 main_c_10 main_v28 ((fun x v => Host.reduce IntOp.addi x v reducesTo_S50000x32_S50000_d1 h_S_) : (⟨S50000x32, .i32⟩ : BufTy).Contents (Elt F) → (⟨S_, .i32⟩ : BufTy).Contents (Elt F) → (⟨S50000, .i32⟩ : BufTy).Contents (Elt F)),
    nullary main_c_11 (constantI S_ 32 1#32),
    unary main_c_11 main_v29 (broadcastInDim S50000 ![] bcast_S_S50000 : (⟨S_, .i32⟩ : BufTy).Contents (Elt F) → (⟨S50000, .i32⟩ : BufTy).Contents (Elt F)),
    binary main_v28 main_v29 main_v30 (maxsi : (⟨S50000, .i32⟩ : BufTy).Contents (Elt F) → (⟨S50000, .i32⟩ : BufTy).Contents (Elt F) → (⟨S50000, .i32⟩ : BufTy).Contents (Elt F)),
    unary main_v30 main_v31 (broadcastInDim S50000x1 ![0] bcast_S50000_S50000x1_0 : (⟨S50000, .i32⟩ : BufTy).Contents (Elt F) → (⟨S50000x1, .i32⟩ : BufTy).Contents (Elt F)),
    unary main_v31 main_v32 (sitofp .f32 : (⟨S50000x1, .i32⟩ : BufTy).Contents (Elt F) → (⟨S50000x1, .f32⟩ : BufTy).Contents (Elt F)),
    nullary main_cst_12 (constant S_ .f32 0x00000000#32),
    binary main_v24 main_cst_12 main_v33 ((fun x v => Host.reduceAdd x v reducesTo_S50000x32x128_S50000x128_d1 h_S_) : (⟨S50000x32x128, .f32⟩ : BufTy).Contents (Elt F) → (⟨S_, .f32⟩ : BufTy).Contents (Elt F) → (⟨S50000x128, .f32⟩ : BufTy).Contents (Elt F)),
    unary main_v32 main_v34 (broadcastInDim S50000x128 ![0, 1] bcast_S50000x1_S50000x128_0_1 : (⟨S50000x1, .f32⟩ : BufTy).Contents (Elt F) → (⟨S50000x128, .f32⟩ : BufTy).Contents (Elt F)),
    binary main_v33 main_v34 main_v35 (Host.divf : (⟨S50000x128, .f32⟩ : BufTy).Contents (Elt F) → (⟨S50000x128, .f32⟩ : BufTy).Contents (Elt F) → (⟨S50000x128, .f32⟩ : BufTy).Contents (Elt F)),
    nullary main_cst_13 (constant S_ .f32 0xFF800000#32),
    binary main_v24 main_cst_13 main_v36 ((fun x v => Host.reduce FloatOps.maximumf x v reducesTo_S50000x32x128_S50000x128_d1 h_S_) : (⟨S50000x32x128, .f32⟩ : BufTy).Contents (Elt F) → (⟨S_, .f32⟩ : BufTy).Contents (Elt F) → (⟨S50000x128, .f32⟩ : BufTy).Contents (Elt F)) ]

/-- From the concatenation of the two halves to the first layer's pre-activation. -/
abbrev P1b : List (HloOp τ sig (Elt F)) :=
  [ binary main_v35 main_v36 main_v37 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v37 main_arg4 main_v38 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v12 main_v39 (broadcastInDim S50000x1 ![0] bcast_S50000_S50000x1_0 : (⟨S50000, .f32⟩ : BufTy).Contents (Elt F) → (⟨S50000x1, .f32⟩ : BufTy).Contents (Elt F)),
    unary main_v39 main_v40 (broadcastInDim S50000x256 ![0, 1] bcast_S50000x1_S50000x256_0_1 : (⟨S50000x1, .f32⟩ : BufTy).Contents (Elt F) → (⟨S50000x256, .f32⟩ : BufTy).Contents (Elt F)),
    binary main_v38 main_v40 main_v41 (mulf : (⟨S50000x256, .f32⟩ : BufTy).Contents (Elt F) → (⟨S50000x256, .f32⟩ : BufTy).Contents (Elt F) → (⟨S50000x256, .f32⟩ : BufTy).Contents (Elt F)),
    nullary main_c_14 (constantI S_ 32 0#32),
    unary main_c_14 main_v42 (broadcastInDim S800000 ![] bcast_S_S800000 : (⟨S_, .i32⟩ : BufTy).Contents (Elt F) → (⟨S800000, .i32⟩ : BufTy).Contents (Elt F)),
    binary main_arg1 main_v42 main_v43 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v44 (broadcastInDim S800000 ![] bcast_S_S800000 : (⟨S_, .i32⟩ : BufTy).Contents (Elt F) → (⟨S800000, .i32⟩ : BufTy).Contents (Elt F)),
    binary main_arg1 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_arg1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_16 (constant S_ .f32 0x00000000#32),
    unary main_cst_16 main_v49 (broadcastInDim S50000x256 ![] bcast_S_S50000x256 : (⟨S_, .f32⟩ : BufTy).Contents (Elt F) → (⟨S50000x256, .f32⟩ : BufTy).Contents (Elt F)),
    unary main_arg2 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v14 main_v52 (broadcastInDim S50000x1 ![0] bcast_S50000_S50000x1_0 : (⟨S50000, .f32⟩ : BufTy).Contents (Elt F) → (⟨S50000x1, .f32⟩ : BufTy).Contents (Elt F)),
    unary main_v52 main_v53 (broadcastInDim S50000x256 ![0, 1] bcast_S50000x1_S50000x256_0_1 : (⟨S50000x1, .f32⟩ : BufTy).Contents (Elt F) → (⟨S50000x256, .f32⟩ : BufTy).Contents (Elt F)),
    binary main_v51 main_v53 main_v54 (mulf : (⟨S50000x256, .f32⟩ : BufTy).Contents (Elt F) → (⟨S50000x256, .f32⟩ : BufTy).Contents (Elt F) → (⟨S50000x256, .f32⟩ : BufTy).Contents (Elt F)),
    unary main_arg5 main_v55 (broadcastInDim S1x256 ![1] bcast_S256_S1x256_1 : (⟨S256, .f32⟩ : BufTy).Contents (Elt F) → (⟨S1x256, .f32⟩ : BufTy).Contents (Elt F)),
    unary main_v55 main_v56 (broadcastInDim S50000x256 ![0, 1] bcast_S1x256_S50000x256_0_1 : (⟨S1x256, .f32⟩ : BufTy).Contents (Elt F) → (⟨S50000x256, .f32⟩ : BufTy).Contents (Elt F)),
    binary main_v54 main_v56 main_v57 (addf : (⟨S50000x256, .f32⟩ : BufTy).Contents (Elt F) → (⟨S50000x256, .f32⟩ : BufTy).Contents (Elt F) → (⟨S50000x256, .f32⟩ : BufTy).Contents (Elt F)) ]

/-- The three operations of the inlined call: the maximum with zero. -/
abbrev P2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x256, .f32⟩) main_call0_v0) (broadcastInDim S50000x256 ![] bcast_S_S50000x256),
    TRef.binary (TRef.of (T := ⟨S50000x256, .f32⟩) main_v57) (TRef.of (T := ⟨S50000x256, .f32⟩) main_call0_v0) (TRef.of (T := ⟨S50000x256, .f32⟩) main_v58) maximumf ]

/-- The operations after the call: the second layer. -/
abbrev P3 : List (HloOp τ sig (Elt F)) :=
  [ binary main_v58 main_arg6 main_v59 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_v12 main_v60 (broadcastInDim S50000x1 ![0] bcast_S50000_S50000x1_0 : (⟨S50000, .f32⟩ : BufTy).Contents (Elt F) → (⟨S50000x1, .f32⟩ : BufTy).Contents (Elt F)),
    unary main_v60 main_v61 (broadcastInDim S50000x40 ![0, 1] bcast_S50000x1_S50000x40_0_1 : (⟨S50000x1, .f32⟩ : BufTy).Contents (Elt F) → (⟨S50000x40, .f32⟩ : BufTy).Contents (Elt F)),
    binary main_v59 main_v61 main_v62 (mulf : (⟨S50000x40, .f32⟩ : BufTy).Contents (Elt F) → (⟨S50000x40, .f32⟩ : BufTy).Contents (Elt F) → (⟨S50000x40, .f32⟩ : BufTy).Contents (Elt F)),
    nullary main_c_17 (constantI S_ 32 0#32),
    unary main_c_17 main_v63 (broadcastInDim S800000 ![] bcast_S_S800000 : (⟨S_, .i32⟩ : BufTy).Contents (Elt F) → (⟨S800000, .i32⟩ : BufTy).Contents (Elt F)),
    binary main_arg1 main_v63 main_v64 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v65 (broadcastInDim S800000 ![] bcast_S_S800000 : (⟨S_, .i32⟩ : BufTy).Contents (Elt F) → (⟨S800000, .i32⟩ : BufTy).Contents (Elt F)),
    binary main_arg1 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_arg1 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_v62 main_v68 main_v69 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    nullary main_cst_19 (constant S_ .f32 0x00000000#32),
    unary main_cst_19 main_v70 (broadcastInDim S50000x40 ![] bcast_S_S50000x40 : (⟨S_, .f32⟩ : BufTy).Contents (Elt F) → (⟨S50000x40, .f32⟩ : BufTy).Contents (Elt F)),
    unary main_arg2 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    unary main_v14 main_v73 (broadcastInDim S50000x1 ![0] bcast_S50000_S50000x1_0 : (⟨S50000, .f32⟩ : BufTy).Contents (Elt F) → (⟨S50000x1, .f32⟩ : BufTy).Contents (Elt F)),
    unary main_v73 main_v74 (broadcastInDim S50000x40 ![0, 1] bcast_S50000x1_S50000x40_0_1 : (⟨S50000x1, .f32⟩ : BufTy).Contents (Elt F) → (⟨S50000x40, .f32⟩ : BufTy).Contents (Elt F)),
    binary main_v72 main_v74 main_v75 (mulf : (⟨S50000x40, .f32⟩ : BufTy).Contents (Elt F) → (⟨S50000x40, .f32⟩ : BufTy).Contents (Elt F) → (⟨S50000x40, .f32⟩ : BufTy).Contents (Elt F)),
    unary main_arg7 main_v76 (broadcastInDim S1x40 ![1] bcast_S40_S1x40_1 : (⟨S40, .f32⟩ : BufTy).Contents (Elt F) → (⟨S1x40, .f32⟩ : BufTy).Contents (Elt F)),
    unary main_v76 main_v77 (broadcastInDim S50000x40 ![0, 1] bcast_S1x40_S50000x40_0_1 : (⟨S1x40, .f32⟩ : BufTy).Contents (Elt F) → (⟨S50000x40, .f32⟩ : BufTy).Contents (Elt F)),
    binary main_v75 main_v77 main_v78 (addf : (⟨S50000x40, .f32⟩ : BufTy).Contents (Elt F) → (⟨S50000x40, .f32⟩ : BufTy).Contents (Elt F) → (⟨S50000x40, .f32⟩ : BufTy).Contents (Elt F)) ]

theorem ops_split : (ops : List (HloOp τ sig (Elt F))) = P1a ++ (P1b ++ (P2 ++ P3)) := rfl

set_option maxRecDepth 8192
set_option maxHeartbeats 4000000

/-! ## The first stretch -/

theorem a_v35 (V : Valuation τ sig (Elt F)) :
    after (P1a (F := F)) V (Proc.devRef .tc main_v35) = val_main_v35 (F := F) (V (Proc.devRef .tc main_arg0)) (V (Proc.devRef .tc main_arg3)) := by
  after_results_simp
  rfl

theorem a_v36 (V : Valuation τ sig (Elt F)) :
    after (P1a (F := F)) V (Proc.devRef .tc main_v36) = val_main_v36 (F := F) (V (Proc.devRef .tc main_arg0)) (V (Proc.devRef .tc main_arg3)) := by
  after_results_simp
  rfl

theorem a_v12 (V : Valuation τ sig (Elt F)) :
    after (P1a (F := F)) V (Proc.devRef .tc main_v12) = val_main_v12 (F := F) (V (Proc.devRef .tc main_arg1)) := by
  after_results_simp
  rfl

theorem a_v14 (V : Valuation τ sig (Elt F)) :
    after (P1a (F := F)) V (Proc.devRef .tc main_v14) = val_main_v14 (F := F) (V (Proc.devRef .tc main_arg2)) := by
  after_results_simp
  rfl

theorem a_arg0 (V : Valuation τ sig (Elt F)) :
    after (P1a (F := F)) V (Proc.devRef .tc main_arg0) = V (Proc.devRef .tc main_arg0) := by
  after_results_simp
theorem a_arg1 (V : Valuation τ sig (Elt F)) :
    after (P1a (F := F)) V (Proc.devRef .tc main_arg1) = V (Proc.devRef .tc main_arg1) := by
  after_results_simp
theorem a_arg2 (V : Valuation τ sig (Elt F)) :
    after (P1a (F := F)) V (Proc.devRef .tc main_arg2) = V (Proc.devRef .tc main_arg2) := by
  after_results_simp
theorem a_arg3 (V : Valuation τ sig (Elt F)) :
    after (P1a (F := F)) V (Proc.devRef .tc main_arg3) = V (Proc.devRef .tc main_arg3) := by
  after_results_simp
theorem a_arg4 (V : Valuation τ sig (Elt F)) :
    after (P1a (F := F)) V (Proc.devRef .tc main_arg4) = V (Proc.devRef .tc main_arg4) := by
  after_results_simp
theorem a_arg5 (V : Valuation τ sig (Elt F)) :
    after (P1a (F := F)) V (Proc.devRef .tc main_arg5) = V (Proc.devRef .tc main_arg5) := by
  after_results_simp
theorem a_arg6 (V : Valuation τ sig (Elt F)) :
    after (P1a (F := F)) V (Proc.devRef .tc main_arg6) = V (Proc.devRef .tc main_arg6) := by
  after_results_simp
theorem a_arg7 (V : Valuation τ sig (Elt F)) :
    after (P1a (F := F)) V (Proc.devRef .tc main_arg7) = V (Proc.devRef .tc main_arg7) := by
  after_results_simp

/-! ## The second stretch -/

theorem b_v57 (W : Valuation τ sig (Elt F)) (x0 : (⟨S50000x32, .i32⟩ : BufTy).Contents (Elt F)) (x1 : (⟨S800000, .i32⟩ : BufTy).Contents (Elt F)) (x2 : (⟨S800000, .i32⟩ : BufTy).Contents (Elt F)) (x3 : (⟨S100000x128, .f32⟩ : BufTy).Contents (Elt F)) (x4 : (⟨S256x256, .f32⟩ : BufTy).Contents (Elt F)) (x5 : (⟨S256, .f32⟩ : BufTy).Contents (Elt F))
    (h35 : W (Proc.devRef .tc main_v35) = val_main_v35 (F := F) x0 x3)
    (h36 : W (Proc.devRef .tc main_v36) = val_main_v36 (F := F) x0 x3)
    (h12 : W (Proc.devRef .tc main_v12) = val_main_v12 (F := F) x1)
    (h14 : W (Proc.devRef .tc main_v14) = val_main_v14 (F := F) x2)
    (h1 : W (Proc.devRef .tc main_arg1) = x1) (h2 : W (Proc.devRef .tc main_arg2) = x2)
    (h4 : W (Proc.devRef .tc main_arg4) = x4) (h5 : W (Proc.devRef .tc main_arg5) = x5) :
    after (P1b (F := F)) W (Proc.devRef .tc main_v57) = val_main_v57 (F := F) x0 x1 x2 x3 x4 x5 := by
  after_results_simp
  rw [h35, h36, h12, h14, h1, h2, h4, h5]
  rfl

theorem b_v12 (V : Valuation τ sig (Elt F)) :
    after (P1b (F := F)) V (Proc.devRef .tc main_v12) = V (Proc.devRef .tc main_v12) := by
  after_results_simp
theorem b_v14 (V : Valuation τ sig (Elt F)) :
    after (P1b (F := F)) V (Proc.devRef .tc main_v14) = V (Proc.devRef .tc main_v14) := by
  after_results_simp

theorem b_arg0 (V : Valuation τ sig (Elt F)) :
    after (P1b (F := F)) V (Proc.devRef .tc main_arg0) = V (Proc.devRef .tc main_arg0) := by
  after_results_simp
theorem b_arg1 (V : Valuation τ sig (Elt F)) :
    after (P1b (F := F)) V (Proc.devRef .tc main_arg1) = V (Proc.devRef .tc main_arg1) := by
  after_results_simp
theorem b_arg2 (V : Valuation τ sig (Elt F)) :
    after (P1b (F := F)) V (Proc.devRef .tc main_arg2) = V (Proc.devRef .tc main_arg2) := by
  after_results_simp
theorem b_arg3 (V : Valuation τ sig (Elt F)) :
    after (P1b (F := F)) V (Proc.devRef .tc main_arg3) = V (Proc.devRef .tc main_arg3) := by
  after_results_simp
theorem b_arg4 (V : Valuation τ sig (Elt F)) :
    after (P1b (F := F)) V (Proc.devRef .tc main_arg4) = V (Proc.devRef .tc main_arg4) := by
  after_results_simp
theorem b_arg5 (V : Valuation τ sig (Elt F)) :
    after (P1b (F := F)) V (Proc.devRef .tc main_arg5) = V (Proc.devRef .tc main_arg5) := by
  after_results_simp
theorem b_arg6 (V : Valuation τ sig (Elt F)) :
    after (P1b (F := F)) V (Proc.devRef .tc main_arg6) = V (Proc.devRef .tc main_arg6) := by
  after_results_simp
theorem b_arg7 (V : Valuation τ sig (Elt F)) :
    after (P1b (F := F)) V (Proc.devRef .tc main_arg7) = V (Proc.devRef .tc main_arg7) := by
  after_results_simp

/-! ## The call -/

theorem p2_v58 (W : Valuation τ sig (Elt F)) :
    after (P2 (F := F)) W (Proc.devRef .tc main_v58)
      = maximumf (W (Proc.devRef .tc main_v57)) (broadcastInDim S50000x256 ![] bcast_S_S50000x256 (constant S_ .f32 0x00000000#32)) := by
  after_results_simp
  rfl

theorem p2_v12 (V : Valuation τ sig (Elt F)) :
    after (P2 (F := F)) V (Proc.devRef .tc main_v12) = V (Proc.devRef .tc main_v12) := by
  after_results_simp
theorem p2_v14 (V : Valuation τ sig (Elt F)) :
    after (P2 (F := F)) V (Proc.devRef .tc main_v14) = V (Proc.devRef .tc main_v14) := by
  after_results_simp

theorem p2_arg0 (V : Valuation τ sig (Elt F)) :
    after (P2 (F := F)) V (Proc.devRef .tc main_arg0) = V (Proc.devRef .tc main_arg0) := by
  after_results_simp
theorem p2_arg1 (V : Valuation τ sig (Elt F)) :
    after (P2 (F := F)) V (Proc.devRef .tc main_arg1) = V (Proc.devRef .tc main_arg1) := by
  after_results_simp
theorem p2_arg2 (V : Valuation τ sig (Elt F)) :
    after (P2 (F := F)) V (Proc.devRef .tc main_arg2) = V (Proc.devRef .tc main_arg2) := by
  after_results_simp
theorem p2_arg3 (V : Valuation τ sig (Elt F)) :
    after (P2 (F := F)) V (Proc.devRef .tc main_arg3) = V (Proc.devRef .tc main_arg3) := by
  after_results_simp
theorem p2_arg4 (V : Valuation τ sig (Elt F)) :
    after (P2 (F := F)) V (Proc.devRef .tc main_arg4) = V (Proc.devRef .tc main_arg4) := by
  after_results_simp
theorem p2_arg5 (V : Valuation τ sig (Elt F)) :
    after (P2 (F := F)) V (Proc.devRef .tc main_arg5) = V (Proc.devRef .tc main_arg5) := by
  after_results_simp
theorem p2_arg6 (V : Valuation τ sig (Elt F)) :
    after (P2 (F := F)) V (Proc.devRef .tc main_arg6) = V (Proc.devRef .tc main_arg6) := by
  after_results_simp
theorem p2_arg7 (V : Valuation τ sig (Elt F)) :
    after (P2 (F := F)) V (Proc.devRef .tc main_arg7) = V (Proc.devRef .tc main_arg7) := by
  after_results_simp

/-! ## The last stretch -/

theorem p3_v78 (W : Valuation τ sig (Elt F)) (x0 : (⟨S50000x32, .i32⟩ : BufTy).Contents (Elt F)) (x1 : (⟨S800000, .i32⟩ : BufTy).Contents (Elt F)) (x2 : (⟨S800000, .i32⟩ : BufTy).Contents (Elt F)) (x3 : (⟨S100000x128, .f32⟩ : BufTy).Contents (Elt F)) (x4 : (⟨S256x256, .f32⟩ : BufTy).Contents (Elt F)) (x5 : (⟨S256, .f32⟩ : BufTy).Contents (Elt F)) (x6 : (⟨S256x40, .f32⟩ : BufTy).Contents (Elt F)) (x7 : (⟨S40, .f32⟩ : BufTy).Contents (Elt F))
    (h58 : W (Proc.devRef .tc main_v58) = val_main_v58 (F := F) x0 x1 x2 x3 x4 x5)
    (h12 : W (Proc.devRef .tc main_v12) = val_main_v12 (F := F) x1)
    (h14 : W (Proc.devRef .tc main_v14) = val_main_v14 (F := F) x2)
    (h1 : W (Proc.devRef .tc main_arg1) = x1) (h2 : W (Proc.devRef .tc main_arg2) = x2)
    (h6 : W (Proc.devRef .tc main_arg6) = x6) (h7 : W (Proc.devRef .tc main_arg7) = x7) :
    after (P3 (F := F)) W (Proc.devRef .tc main_v78) = val_main_v78 (F := F) x0 x1 x2 x3 x4 x5 x6 x7 := by
  after_results_simp
  rw [h58, h12, h14, h1, h2, h6, h7]
  rfl

theorem p3_arg0 (V : Valuation τ sig (Elt F)) :
    after (P3 (F := F)) V (Proc.devRef .tc main_arg0) = V (Proc.devRef .tc main_arg0) := by
  after_results_simp
theorem p3_arg1 (V : Valuation τ sig (Elt F)) :
    after (P3 (F := F)) V (Proc.devRef .tc main_arg1) = V (Proc.devRef .tc main_arg1) := by
  after_results_simp
theorem p3_arg2 (V : Valuation τ sig (Elt F)) :
    after (P3 (F := F)) V (Proc.devRef .tc main_arg2) = V (Proc.devRef .tc main_arg2) := by
  after_results_simp
theorem p3_arg3 (V : Valuation τ sig (Elt F)) :
    after (P3 (F := F)) V (Proc.devRef .tc main_arg3) = V (Proc.devRef .tc main_arg3) := by
  after_results_simp
theorem p3_arg4 (V : Valuation τ sig (Elt F)) :
    after (P3 (F := F)) V (Proc.devRef .tc main_arg4) = V (Proc.devRef .tc main_arg4) := by
  after_results_simp
theorem p3_arg5 (V : Valuation τ sig (Elt F)) :
    after (P3 (F := F)) V (Proc.devRef .tc main_arg5) = V (Proc.devRef .tc main_arg5) := by
  after_results_simp
theorem p3_arg6 (V : Valuation τ sig (Elt F)) :
    after (P3 (F := F)) V (Proc.devRef .tc main_arg6) = V (Proc.devRef .tc main_arg6) := by
  after_results_simp
theorem p3_arg7 (V : Valuation τ sig (Elt F)) :
    after (P3 (F := F)) V (Proc.devRef .tc main_arg7) = V (Proc.devRef .tc main_arg7) := by
  after_results_simp

/-! ## The whole list -/

/-- The first layer's pre-activation after the first two stretches. -/
theorem ab_v57 (V : Valuation τ sig (Elt F)) :
    after (P1b (F := F)) (after P1a V) (Proc.devRef .tc main_v57) = val_main_v57 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  b_v57 (after P1a V) _ _ _ _ _ _ (a_v35 V) (a_v36 V) (a_v12 V)
    (a_v14 V) (a_arg1 V) (a_arg2 V) (a_arg4 V) (a_arg5 V)

/-- The result buffer after all the operations, from any starting contents. -/
theorem after_ops_v78 (V : Valuation τ sig (Elt F)) :
    after (ops (F := F)) V (Proc.devRef .tc main_v78) = val_main_v78 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_append, after_append, after_append]
  apply p3_v78
  · rw [p2_v58, ab_v57]; rfl
  · rw [p2_v12, b_v12, a_v12]
  · rw [p2_v14, b_v14, a_v14]
  · rw [p2_arg1, b_arg1, a_arg1]
  · rw [p2_arg2, b_arg2, a_arg2]
  · rw [p2_arg6, b_arg6, a_arg6]
  · rw [p2_arg7, b_arg7, a_arg7]

/-- Argument 0 keeps its contents. -/
theorem after_ops_arg0 (V : Valuation τ sig (Elt F)) :
    after (ops (F := F)) V (Proc.devRef .tc main_arg0) = V (Proc.devRef .tc main_arg0) := by
  rw [ops_split, after_append, after_append, after_append, p3_arg0, p2_arg0, b_arg0, a_arg0]

/-- Argument 1 keeps its contents. -/
theorem after_ops_arg1 (V : Valuation τ sig (Elt F)) :
    after (ops (F := F)) V (Proc.devRef .tc main_arg1) = V (Proc.devRef .tc main_arg1) := by
  rw [ops_split, after_append, after_append, after_append, p3_arg1, p2_arg1, b_arg1, a_arg1]

/-- Argument 2 keeps its contents. -/
theorem after_ops_arg2 (V : Valuation τ sig (Elt F)) :
    after (ops (F := F)) V (Proc.devRef .tc main_arg2) = V (Proc.devRef .tc main_arg2) := by
  rw [ops_split, after_append, after_append, after_append, p3_arg2, p2_arg2, b_arg2, a_arg2]

/-- Argument 3 keeps its contents. -/
theorem after_ops_arg3 (V : Valuation τ sig (Elt F)) :
    after (ops (F := F)) V (Proc.devRef .tc main_arg3) = V (Proc.devRef .tc main_arg3) := by
  rw [ops_split, after_append, after_append, after_append, p3_arg3, p2_arg3, b_arg3, a_arg3]

/-- Argument 4 keeps its contents. -/
theorem after_ops_arg4 (V : Valuation τ sig (Elt F)) :
    after (ops (F := F)) V (Proc.devRef .tc main_arg4) = V (Proc.devRef .tc main_arg4) := by
  rw [ops_split, after_append, after_append, after_append, p3_arg4, p2_arg4, b_arg4, a_arg4]

/-- Argument 5 keeps its contents. -/
theorem after_ops_arg5 (V : Valuation τ sig (Elt F)) :
    after (ops (F := F)) V (Proc.devRef .tc main_arg5) = V (Proc.devRef .tc main_arg5) := by
  rw [ops_split, after_append, after_append, after_append, p3_arg5, p2_arg5, b_arg5, a_arg5]

/-- Argument 6 keeps its contents. -/
theorem after_ops_arg6 (V : Valuation τ sig (Elt F)) :
    after (ops (F := F)) V (Proc.devRef .tc main_arg6) = V (Proc.devRef .tc main_arg6) := by
  rw [ops_split, after_append, after_append, after_append, p3_arg6, p2_arg6, b_arg6, a_arg6]

/-- Argument 7 keeps its contents. -/
theorem after_ops_arg7 (V : Valuation τ sig (Elt F)) :
    after (ops (F := F)) V (Proc.devRef .tc main_arg7) = V (Proc.devRef .tc main_arg7) := by
  rw [ops_split, after_append, after_append, after_append, p3_arg7, p2_arg7, b_arg7, a_arg7]

/-! ## At the launch contents -/

theorem fold_eq (m : (ℓ : Loc nD τ sig) → Buf (Elt Ideal) ℓ) (c : Dev nD) :
    after (ops (F := Ideal)) (launchContents m c) (Proc.devRef .tc main_v78)
      = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  after_ops_v78 (launchContents m c)

theorem fold_arg0 (m : (ℓ : Loc nD τ sig) → Buf (Elt Ideal) ℓ) (c : Dev nD) :
    after (ops (F := Ideal)) (launchContents m c) (Proc.devRef .tc main_arg0) = m ((c.tc : Thread nD τ).loc main_arg0) :=
  after_ops_arg0 (launchContents m c)

theorem fold_arg1 (m : (ℓ : Loc nD τ sig) → Buf (Elt Ideal) ℓ) (c : Dev nD) :
    after (ops (F := Ideal)) (launchContents m c) (Proc.devRef .tc main_arg1) = m ((c.tc : Thread nD τ).loc main_arg1) :=
  after_ops_arg1 (launchContents m c)

theorem fold_arg2 (m : (ℓ : Loc nD τ sig) → Buf (Elt Ideal) ℓ) (c : Dev nD) :
    after (ops (F := Ideal)) (launchContents m c) (Proc.devRef .tc main_arg2) = m ((c.tc : Thread nD τ).loc main_arg2) :=
  after_ops_arg2 (launchContents m c)

theorem fold_arg3 (m : (ℓ : Loc nD τ sig) → Buf (Elt Ideal) ℓ) (c : Dev nD) :
    after (ops (F := Ideal)) (launchContents m c) (Proc.devRef .tc main_arg3) = m ((c.tc : Thread nD τ).loc main_arg3) :=
  after_ops_arg3 (launchContents m c)

theorem fold_arg4 (m : (ℓ : Loc nD τ sig) → Buf (Elt Ideal) ℓ) (c : Dev nD) :
    after (ops (F := Ideal)) (launchContents m c) (Proc.devRef .tc main_arg4) = m ((c.tc : Thread nD τ).loc main_arg4) :=
  after_ops_arg4 (launchContents m c)

theorem fold_arg5 (m : (ℓ : Loc nD τ sig) → Buf (Elt Ideal) ℓ) (c : Dev nD) :
    after (ops (F := Ideal)) (launchContents m c) (Proc.devRef .tc main_arg5) = m ((c.tc : Thread nD τ).loc main_arg5) :=
  after_ops_arg5 (launchContents m c)

theorem fold_arg6 (m : (ℓ : Loc nD τ sig) → Buf (Elt Ideal) ℓ) (c : Dev nD) :
    after (ops (F := Ideal)) (launchContents m c) (Proc.devRef .tc main_arg6) = m ((c.tc : Thread nD τ).loc main_arg6) :=
  after_ops_arg6 (launchContents m c)

theorem fold_arg7 (m : (ℓ : Loc nD τ sig) → Buf (Elt Ideal) ℓ) (c : Dev nD) :
    after (ops (F := Ideal)) (launchContents m c) (Proc.devRef .tc main_arg7) = m ((c.tc : Thread nD τ).loc main_arg7) :=
  after_ops_arg7 (launchContents m c)

end Cert.RefFold

end
-- ==== Proof.RefSide.lean ====
/-
  The reference program computes the stated function `Spec.outR` of its arguments.

  The reference's value is read one stage at a time.  In the first stage a row's 256 features are the plain mean of
  its 32 gathered rows (their sum over the number of non-padding tokens, counted on 32-bit words and floored at 1)
  followed by their entrywise maximum; the row times the first weight matrix is then scaled by the source norm.  The
  second stage scales the aggregate by the target norm, adds the bias, floors at 0, multiplies by the second weight
  matrix and scales by the source norm; the last stage scales by the target norm and adds the bias.  Between the
  stages the rows are passed along the edges by the same gather and scatter-add on both sides.

  Two facts about reductions over one axis come first: the fold of a commutative, associative operation along the
  columns of a matrix, and along the middle axis of a rank-3 array, read at a result index as a fold over the
  coordinates of the reduced axis.
-/
import proofs.«164033_j9122510536818_2_alg».proof.Proof.Spec
import proofs.«164033_j9122510536818_2_alg».proof.Proof.LibConcatCols

noncomputable section

namespace Cert.RefSide

open Idealize.ShloMosaic Idealize.ShloMosaic.ValueIdx
open Cert.ReferenceIdeal Cert.ReferenceIdeal.Gen Cert.ReferenceIdeal.ReadP

/-! ## A reduction over one axis, read by coordinates -/

/-- Row `p` of a matrix with column `l` put back is the entry (p, l). -/
theorem lift2 {m n : Nat} (h : (⟨2, ![m, n]⟩ : Shape).Reduces [1] (⟨1, ![m]⟩ : Shape)) (p : Fin m)
    (l : Fin ((⟨2, ![m, n]⟩ : Shape).size 1)) : h.lift (ix1 p) l = ix2 p (⟨l.val, l.isLt⟩ : Fin n) := by
  funext c; apply Fin.ext
  fin_cases c <;> rfl

/-- The index (p, k) of the outer axes of a rank-3 array with the middle coordinate `l` put back is (p, l, k). -/
theorem lift3 {m n d : Nat} (h : (⟨3, ![m, n, d]⟩ : Shape).Reduces [1] (⟨2, ![m, d]⟩ : Shape)) (p : Fin m) (k : Fin d)
    (l : Fin ((⟨3, ![m, n, d]⟩ : Shape).size 1)) : h.lift (ix2 p k) l = ix3 p (⟨l.val, l.isLt⟩ : Fin n) k := by
  funext c; apply Fin.ext
  fin_cases c <;> rfl

/-- A reduction of a matrix along its columns by a commutative, associative operation is, at row `p`, the fold of
    the operation over that row's entries. -/
theorem hostReduce_rows {α : Type} {m n : Nat} (f : α → α → α) [Std.Commutative f] [Std.Associative f]
    (x : (⟨2, ![m, n]⟩ : Shape).Idx → α) {u : Shape} (init : u.Idx → α)
    (h' : (⟨2, ![m, n]⟩ : Shape).ReducesTo [1] (⟨1, ![m]⟩ : Shape)) (h : (⟨2, ![m, n]⟩ : Shape).Reduces [1] (⟨1, ![m]⟩ : Shape))
    (hu : 0 < u.numel) (p : Fin m) :
    Host.reduce f x init h' hu (ix1 p) = (Finset.univ : Finset (Fin n)).fold f (init (Shape.Idx.first hu)) fun l => x (ix2 p l) := by
  rw [Host.reduce_eq_fold_single f x init h' h hu]
  have hf : (x ∘ h.lift (ix1 p)) = fun l : Fin n => x (ix2 p l) := funext fun l => congrArg x (lift2 h p l)
  exact congrArg (fun g => Finset.fold f (init (Shape.Idx.first hu)) g (Finset.univ : Finset (Fin n))) hf

/-- A reduction of a rank-3 array along its middle axis by a commutative, associative operation is, at (p, k), the
    fold of the operation over the entries (p, l, k). -/
theorem hostReduce_mid {α : Type} {m n d : Nat} (f : α → α → α) [Std.Commutative f] [Std.Associative f]
    (x : (⟨3, ![m, n, d]⟩ : Shape).Idx → α) {u : Shape} (init : u.Idx → α)
    (h' : (⟨3, ![m, n, d]⟩ : Shape).ReducesTo [1] (⟨2, ![m, d]⟩ : Shape)) (h : (⟨3, ![m, n, d]⟩ : Shape).Reduces [1] (⟨2, ![m, d]⟩ : Shape))
    (hu : 0 < u.numel) (p : Fin m) (k : Fin d) :
    Host.reduce f x init h' hu (ix2 p k) = (Finset.univ : Finset (Fin n)).fold f (init (Shape.Idx.first hu)) fun l => x (ix3 p l k) := by
  rw [Host.reduce_eq_fold_single f x init h' h hu]
  have hf : (x ∘ h.lift (ix2 p k)) = fun l : Fin n => x (ix3 p l k) := funext fun l => congrArg x (lift3 h p k l)
  exact congrArg (fun g => Finset.fold f (init (Shape.Idx.first hu)) g (Finset.univ : Finset (Fin n))) hf

/-! ## The first stage, one row -/

/-- The word "token l of row p is not the padding id". -/
theorem flag_apply (x0 : IVec S50000x32 32) (p : Fin 50000) (l : Fin 32) :
    val_main_v27 (F := Ideal) x0 (ix2 p l) = Spec.flag (x0 (ix2 p l)) := by
  rw [val_main_v27_apply, val_main_v26_apply, val_main_v25_apply, val_main_c_9_apply]
  rfl

/-- The number of non-padding tokens of row p, as a 32-bit word. -/
theorem count_apply (x0 : IVec S50000x32 32) (p : Fin 50000) :
    val_main_v28 (F := Ideal) x0 (ix1 p)
      = (Finset.univ : Finset (Fin 32)).fold IntOp.addi 0#32 fun l => Spec.flag (x0 (ix2 p l)) := by
  unfold val_main_v28
  rw [hostReduce_rows IntOp.addi (val_main_v27 (F := Ideal) x0) (val_main_c_10 (F := Ideal)) reducesTo_S50000x32_S50000_d1
    (by decide) h_S_ p]
  exact congrArg (fun g => Finset.fold IntOp.addi 0#32 g (Finset.univ : Finset (Fin 32))) (funext fun l => flag_apply x0 p l)

/-- The divisor of row p's mean: the word count floored at 1, read as a number. -/
theorem cnt_apply (x0 : IVec S50000x32 32) (p : Fin 50000) (k : Fin 128) :
    val_main_v34 (F := Ideal) x0 (ix2 p k) = Spec.cntR fun l => x0 (ix2 p l) := by
  rw [val_main_v34_apply, val_main_v32_apply, val_main_v31_apply, val_main_v30_apply, val_main_v29_apply, val_main_c_11_apply]
  have e : idx_main_v31 (idx_main_v34 (ix2 p k)) = ix1 p := by
    funext a; match a with | ⟨0, _⟩ => rfl
  rw [e, count_apply]
  rfl

/-- The sum of row p's 32 gathered rows, entry k. -/
theorem sum_apply (x0 : IVec S50000x32 32) (x3 : FVec Ideal S100000x128 .f32) (p : Fin 50000) (k : Fin 128) :
    val_main_v33 (F := Ideal) x0 x3 (ix2 p k) = ∑ l : Fin 32, val_main_v24 (F := Ideal) x0 x3 (ix3 p l k) := by
  rw [val_main_v33_apply, val_main_cst_12_apply, Ideal.ofBits_def, Ideal.ofBits_zero_f32, zero_add]
  refine Finset.sum_congr rfl fun l _ => congrArg _ ?_
  funext a; match a with | ⟨0, _⟩ => rfl | ⟨1, _⟩ => rfl | ⟨2, _⟩ => rfl

/-- The plain mean of row p's gathered rows, entry k. -/
theorem mean_apply (x0 : IVec S50000x32 32) (x3 : FVec Ideal S100000x128 .f32) (p : Fin 50000) (k : Fin 128) :
    val_main_v35 (F := Ideal) x0 x3 (ix2 p k)
      = Spec.meanR (fun l => x0 (ix2 p l)) (fun l d => val_main_v24 (F := Ideal) x0 x3 (ix3 p l d)) k := by
  rw [val_main_v35_apply, sum_apply, cnt_apply]
  rfl

/-- The entrywise maximum of row p's gathered rows, entry k. -/
theorem top_apply (x0 : IVec S50000x32 32) (x3 : FVec Ideal S100000x128 .f32) (p : Fin 50000) (k : Fin 128) :
    val_main_v36 (F := Ideal) x0 x3 (ix2 p k)
      = Spec.top (fun l d => val_main_v24 (F := Ideal) x0 x3 (ix3 p l d)) k := by
  unfold val_main_v36
  generalize val_main_v24 (F := Ideal) x0 x3 = hg
  rw [hostReduce_mid (FloatOps.maximumf (F := Ideal) (φ := .f32)) hg (val_main_cst_13 (F := Ideal))
    reducesTo_S50000x32x128_S50000x128_d1 (by decide) h_S_ p k]
  rfl

/-- Row p's 256 features: the mean's 128 entries, then the maximum's. -/
theorem feat_apply (x0 : IVec S50000x32 32) (x3 : FVec Ideal S100000x128 .f32) (p : Fin 50000) (j : Fin 256) :
    val_main_v37 (F := Ideal) x0 x3 (ix2 p j)
      = Spec.join (Spec.meanR (fun l => x0 (ix2 p l)) (fun l d => val_main_v24 (F := Ideal) x0 x3 (ix3 p l d)))
          (Spec.top (fun l d => val_main_v24 (F := Ideal) x0 x3 (ix3 p l d))) j := by
  unfold val_main_v37 Spec.join
  by_cases h : j.val < 128
  · rw [dif_pos h]
    exact (Cert.Lib.ConcatCols.concat_cols_left _ _ _ p j ⟨j.val, h⟩ rfl).trans (mean_apply x0 x3 p ⟨j.val, h⟩)
  · rw [dif_neg h]
    exact (Cert.Lib.ConcatCols.concat_cols_right _ _ _ p j ⟨j.val - 128, by have := j.isLt; omega⟩
      (by show 128 + (j.val - 128) = j.val; omega)).trans (top_apply x0 x3 p _)

/-- Entry (p, q) of the first stage. -/
theorem stage1_row (x0 : IVec S50000x32 32) (x1 : IVec S800000 32) (x3 : FVec Ideal S100000x128 .f32)
    (x4 : FVec Ideal S256x256 .f32) (p : Fin 50000) (q : Fin 256) :
    val_main_v41 (F := Ideal) x0 x1 x3 x4 (ix2 p q)
      = Spec.layer1R (fun l => x0 (ix2 p l)) (fun l d => val_main_v24 (F := Ideal) x0 x3 (ix3 p l d))
          (fun k q => x4 (ix2 k q)) (val_main_v12 (F := Ideal) x1 (ix1 p)) q := by
  rw [val_main_v41_apply, val_main_v38_apply, val_main_v40_apply, val_main_v39_apply, Ideal.mulf_def]
  unfold Spec.layer1R Spec.dense
  refine congrArg₂ (· * ·) (Finset.sum_congr rfl fun k _ => congrArg₂ (· * ·) ?_ ?_) ?_
  · have e : lidx_main_v38 (ix2 p q) k = ix2 p k := by
      funext a; match a with | ⟨0, _⟩ => rfl | ⟨1, _⟩ => rfl
    rw [e]
    exact feat_apply x0 x3 p k
  · exact congrArg x4 (by funext a; match a with | ⟨0, _⟩ => rfl | ⟨1, _⟩ => rfl)
  · exact congrArg (val_main_v12 (F := Ideal) x1) (by funext a; match a with | ⟨0, _⟩ => rfl)

/-- The first stage on the whole arrays. -/
theorem stage1_eq (x0 : IVec S50000x32 32) (x1 : IVec S800000 32) (x3 : FVec Ideal S100000x128 .f32)
    (x4 : FVec Ideal S256x256 .f32) :
    val_main_v41 (F := Ideal) x0 x1 x3 x4 = Spec.stage1R x0 (Spec.gathered x0 x3) x4 (Spec.norm x1) := by
  funext i
  obtain ⟨p, q, rfl⟩ : ∃ p q, i = ix2 p q := ⟨i 0, i 1, eq_ix2 i⟩
  unfold Spec.stage1R Spec.gathered Spec.norm
  exact stage1_row x0 x1 x3 x4 p q

/-! ## The second stage -/

/-- Entry (p, k) of the hidden activation. -/
theorem hidden_apply (x0 : IVec S50000x32 32) (x1 x2 : IVec S800000 32) (x3 : FVec Ideal S100000x128 .f32)
    (x4 : FVec Ideal S256x256 .f32) (x5 : FVec Ideal S256 .f32) (p : Fin 50000) (k : Fin 256) :
    val_main_v58 (F := Ideal) x0 x1 x2 x3 x4 x5 (ix2 p k)
      = Spec.hidden (fun k => val_main_v51 (F := Ideal) x0 x1 x2 x3 x4 (ix2 p k)) (val_main_v14 (F := Ideal) x2 (ix1 p))
          (fun k => x5 (ix1 k)) k := by
  rw [val_main_v58_apply, val_main_v57_apply, val_main_v54_apply, val_main_v53_apply, val_main_v52_apply, val_main_v56_apply,
    val_main_v55_apply, val_main_call0_v0_apply, val_main_call0_cst_apply]
  have e1 : idx_main_v52 (idx_main_v53 (ix2 p k)) = ix1 p := by
    funext a; match a with | ⟨0, _⟩ => rfl
  have e2 : idx_main_v55 (idx_main_v56 (ix2 p k)) = ix1 k := by
    funext a; match a with | ⟨0, _⟩ => rfl
  rw [e1, e2]
  rfl

/-- Entry (p, q) of the second stage. -/
theorem stage2_row (x0 : IVec S50000x32 32) (x1 x2 : IVec S800000 32) (x3 : FVec Ideal S100000x128 .f32)
    (x4 : FVec Ideal S256x256 .f32) (x5 : FVec Ideal S256 .f32) (x6 : FVec Ideal S256x40 .f32) (p : Fin 50000) (q : Fin 40) :
    val_main_v62 (F := Ideal) x0 x1 x2 x3 x4 x5 x6 (ix2 p q)
      = Spec.layer2 (fun k => val_main_v51 (F := Ideal) x0 x1 x2 x3 x4 (ix2 p k)) (val_main_v14 (F := Ideal) x2 (ix1 p))
          (fun k => x5 (ix1 k)) (fun k q => x6 (ix2 k q)) (val_main_v12 (F := Ideal) x1 (ix1 p)) q := by
  rw [val_main_v62_apply, val_main_v59_apply, val_main_v61_apply, val_main_v60_apply, Ideal.mulf_def]
  unfold Spec.layer2 Spec.dense
  refine congrArg₂ (· * ·) (Finset.sum_congr rfl fun k _ => congrArg₂ (· * ·) ?_ ?_) ?_
  · have e : lidx_main_v59 (ix2 p q) k = ix2 p k := by
      funext a; match a with | ⟨0, _⟩ => rfl | ⟨1, _⟩ => rfl
    rw [e]
    exact hidden_apply x0 x1 x2 x3 x4 x5 p k
  · exact congrArg x6 (by funext a; match a with | ⟨0, _⟩ => rfl | ⟨1, _⟩ => rfl)
  · exact congrArg (val_main_v12 (F := Ideal) x1) (by funext a; match a with | ⟨0, _⟩ => rfl)

/-- The second stage on the whole arrays. -/
theorem stage2_eq (x0 : IVec S50000x32 32) (x1 x2 : IVec S800000 32) (x3 : FVec Ideal S100000x128 .f32)
    (x4 : FVec Ideal S256x256 .f32) (x5 : FVec Ideal S256 .f32) (x6 : FVec Ideal S256x40 .f32) :
    val_main_v62 (F := Ideal) x0 x1 x2 x3 x4 x5 x6
      = Spec.stage2 (val_main_v51 (F := Ideal) x0 x1 x2 x3 x4) (val_main_v14 (F := Ideal) x2) x5 x6 (val_main_v12 (F := Ideal) x1) := by
  funext i
  obtain ⟨p, q, rfl⟩ : ∃ p q, i = ix2 p q := ⟨i 0, i 1, eq_ix2 i⟩
  unfold Spec.stage2
  exact stage2_row x0 x1 x2 x3 x4 x5 x6 p q

/-! ## The last stage -/

/-- Entry (p, q) of the result. -/
theorem stage3_row (x0 : IVec S50000x32 32) (x1 x2 : IVec S800000 32) (x3 : FVec Ideal S100000x128 .f32)
    (x4 : FVec Ideal S256x256 .f32) (x5 : FVec Ideal S256 .f32) (x6 : FVec Ideal S256x40 .f32) (x7 : FVec Ideal S40 .f32)
    (p : Fin 50000) (q : Fin 40) :
    val_main_v78 (F := Ideal) x0 x1 x2 x3 x4 x5 x6 x7 (ix2 p q)
      = val_main_v72 (F := Ideal) x0 x1 x2 x3 x4 x5 x6 (ix2 p q) * val_main_v14 (F := Ideal) x2 (ix1 p) + x7 (ix1 q) := by
  rw [val_main_v78_apply, val_main_v75_apply, val_main_v74_apply, val_main_v73_apply, val_main_v77_apply, val_main_v76_apply]
  have e1 : idx_main_v73 (idx_main_v74 (ix2 p q)) = ix1 p := by
    funext a; match a with | ⟨0, _⟩ => rfl
  have e2 : idx_main_v76 (idx_main_v77 (ix2 p q)) = ix1 q := by
    funext a; match a with | ⟨0, _⟩ => rfl
  rw [e1, e2]
  rfl

/-- The last stage on the whole arrays. -/
theorem stage3_eq (x0 : IVec S50000x32 32) (x1 x2 : IVec S800000 32) (x3 : FVec Ideal S100000x128 .f32)
    (x4 : FVec Ideal S256x256 .f32) (x5 : FVec Ideal S256 .f32) (x6 : FVec Ideal S256x40 .f32) (x7 : FVec Ideal S40 .f32) :
    val_main_v78 (F := Ideal) x0 x1 x2 x3 x4 x5 x6 x7
      = Spec.stage3 (val_main_v72 (F := Ideal) x0 x1 x2 x3 x4 x5 x6) (val_main_v14 (F := Ideal) x2) x7 := by
  funext i
  obtain ⟨p, q, rfl⟩ : ∃ p q, i = ix2 p q := ⟨i 0, i 1, eq_ix2 i⟩
  unfold Spec.stage3
  exact stage3_row x0 x1 x2 x3 x4 x5 x6 x7 p q

/-! ## The passes along the edges and the norms: the same operations on both sides -/

theorem pass256_eq (x0 : IVec S50000x32 32) (x1 x2 : IVec S800000 32) (x3 : FVec Ideal S100000x128 .f32)
    (x4 : FVec Ideal S256x256 .f32) :
    val_main_v51 (F := Ideal) x0 x1 x2 x3 x4 = Spec.pass256 (val_main_v41 (F := Ideal) x0 x1 x3 x4) x1 x2 := by
  unfold val_main_v51 val_main_v48 Spec.pass256
  rfl

theorem pass40_eq (x0 : IVec S50000x32 32) (x1 x2 : IVec S800000 32) (x3 : FVec Ideal S100000x128 .f32)
    (x4 : FVec Ideal S256x256 .f32) (x5 : FVec Ideal S256 .f32) (x6 : FVec Ideal S256x40 .f32) :
    val_main_v72 (F := Ideal) x0 x1 x2 x3 x4 x5 x6 = Spec.pass40 (val_main_v62 (F := Ideal) x0 x1 x2 x3 x4 x5 x6) x1 x2 := by
  unfold val_main_v72 val_main_v69 Spec.pass40
  rfl

/-- The target norm is the source norm's operations applied to the other end of the edge list. -/
theorem norm_eq (x2 : IVec S800000 32) : val_main_v14 (F := Ideal) x2 = Spec.norm x2 := by
  unfold Spec.norm val_main_v14 val_main_v12 val_main_v10 val_main_v5 val_main_v8 val_main_v3 val_main_v13 val_main_v11
    val_main_v9 val_main_v4 val_main_v6 val_main_v1 val_main_v7 val_main_v2
  rfl

/-! ## The whole function -/

/-- The reference's result, as a function of its arguments, is `Spec.outR`. -/
theorem val_eq (x0 : IVec S50000x32 32) (x1 x2 : IVec S800000 32) (x3 : FVec Ideal S100000x128 .f32)
    (x4 : FVec Ideal S256x256 .f32) (x5 : FVec Ideal S256 .f32) (x6 : FVec Ideal S256x40 .f32) (x7 : FVec Ideal S40 .f32) :
    Cert.ReferenceIdeal.ReadP.val_main_v78 (F := Ideal) x0 x1 x2 x3 x4 x5 x6 x7 = Cert.Spec.outR x0 x1 x2 x3 x4 x5 x6 x7 := by
  unfold Spec.outR Spec.rest
  rw [stage3_eq, pass40_eq, stage2_eq, pass256_eq, stage1_eq, norm_eq]
  rfl

end Cert.RefSide

end
-- ==== Proof.RowBridge.lean ====
/-
  The two spellings of one row of the first stage agree.

  A token's weight is 1 off the padding id and 0 at it; a padding token's gathered row is zero, so the weighted sum of
  the rows is their plain sum; and the number of non-padding tokens is the same natural number whether the weights
  are added as extended reals or as 32-bit words (at most 32 of them: no wrap, and the signed reading is the natural
  number itself).
-/
import proofs.«164033_j9122510536818_2_alg».proof.Proof.Spec
import Mathlib

noncomputable section

namespace Cert.RowBridge

open Idealize.ShloMosaic Idealize.ShloMosaic.ValueIdx
open Cert.Spec

/-! ## Words -/

/-- The weight of a token as a natural number. -/
def c (w : BitVec 32) : Nat := if w = 0#32 then 0 else 1

theorem c_le_one (w : BitVec 32) : c w ≤ 1 := by unfold c; split <;> omega

theorem flag_eq (w : BitVec 32) : flag w = BitVec.ofNat 32 (c w) := by
  unfold flag IntOp.cmpi c
  by_cases h : w = 0#32
  · subst h; decide
  · have hb : (w != 0#32) = true := by simpa [bne_iff_ne] using h
    simp only [hb, h, if_false]
    decide

/-- A small natural number read back from its 32-bit word, signed. -/
theorem toInt_ofNat_small (n : Nat) (h : n < 2 ^ 31) : (BitVec.ofNat 32 n).toInt = (n : Int) := by
  rw [BitVec.toInt_eq_toNat_cond, BitVec.toNat_ofNat]
  have : n % 2 ^ 32 = n := Nat.mod_eq_of_lt (by omega)
  rw [this]
  split
  · rfl
  · omega

/-- The value of the conversion of a word to an ideal float. -/
theorem sitofp_eq (b : BitVec 32) : FloatOps.sitofp (F := Ideal) .f32 b = ((b.toInt : ℝ) : EReal) := rfl

theorem keep_eq' (w : BitVec 32) : keep w = ((c w : ℝ) : EReal) := by
  unfold keep
  rw [sitofp_eq, flag_eq, toInt_ofNat_small _ (lt_of_le_of_lt (c_le_one w) (by norm_num))]
  simp

theorem keep_eq (w : BitVec 32) : keep w = if w = 0#32 then 0 else 1 := by
  rw [keep_eq']
  unfold c
  split <;> simp

/-- A fold of 32-bit additions from zero is the word of the sum. -/
theorem fold_addi_ofNat {ι : Type} [DecidableEq ι] (s : Finset ι) (a : ι → Nat) :
    s.fold IntOp.addi 0#32 (fun l => BitVec.ofNat 32 (a l)) = BitVec.ofNat 32 (∑ l ∈ s, a l) := by
  induction s using Finset.induction_on with
  | empty => simp
  | insert x s hx ih =>
    rw [Finset.fold_insert hx, ih, Finset.sum_insert hx]
    unfold IntOp.addi
    rw [← BitVec.ofNat_add]

/-- The sum of naturals read as extended reals. -/
theorem sum_coe {ι : Type} [DecidableEq ι] (s : Finset ι) (a : ι → Nat) :
    (∑ l ∈ s, ((a l : ℝ) : EReal)) = (((∑ l ∈ s, a l : Nat) : ℝ) : EReal) := by
  induction s using Finset.induction_on with
  | empty => simp
  | insert x s hx ih =>
    rw [Finset.sum_insert hx, Finset.sum_insert hx, ih]
    push_cast
    rfl

theorem one_bits : Ideal.ofBits .f32 0x3F800000#32 = 1 := by
  simp [Ideal.ofBits, Ideal.ieee]
  rw [← EReal.coe_mul, ← EReal.coe_one]
  congr 1
  norm_num

theorem maxsi_small (n : Nat) (h : n < 2 ^ 31) :
    IntOp.maxsi (BitVec.ofNat 32 n) 1#32 = BitVec.ofNat 32 (max n 1) := by
  unfold IntOp.maxsi BitVec.slt
  have h1 : (1#32 : BitVec 32).toInt = 1 := by decide
  rw [toInt_ofNat_small n h, h1]
  by_cases hn : 1 < n
  · have : ((1 : Int) < (n : Int)) := by exact_mod_cast hn
    simp only [this, decide_true, if_true]
    rw [max_eq_left (le_of_lt hn)]
  · have : ¬ ((1 : Int) < (n : Int)) := by exact_mod_cast hn
    simp only [this, decide_false]
    rw [max_eq_right (not_lt.mp hn)]
    rfl

theorem cnt_eq (f : Fin 32 → BitVec 32) : cntK f = cntR f := by
  unfold cntK cntR
  have hN : (∑ l : Fin 32, c (f l)) ≤ 32 := by
    calc (∑ l : Fin 32, c (f l)) ≤ ∑ _l : Fin 32, 1 := Finset.sum_le_sum fun l _ => c_le_one (f l)
      _ = 32 := by simp
  have hfold : (Finset.univ.fold IntOp.addi 0#32 fun l => flag (f l)) = BitVec.ofNat 32 (∑ l : Fin 32, c (f l)) := by
    rw [← fold_addi_ofNat]
    congr 1
    funext l
    exact flag_eq (f l)
  rw [hfold, maxsi_small _ (by omega), sitofp_eq, toInt_ofNat_small _ (by omega), one_bits]
  have hsum : (∑ l : Fin 32, keep (f l)) = (((∑ l : Fin 32, c (f l) : Nat) : ℝ) : EReal) := by
    rw [← sum_coe]
    exact Finset.sum_congr rfl fun l _ => keep_eq' (f l)
  rw [hsum]
  generalize (∑ l : Fin 32, c (f l)) = N
  have : ((1 : EReal)) = ((1 : ℝ) : EReal) := rfl
  rw [this, ← EReal.coe_strictMono.monotone.map_max]
  congr 1
  push_cast
  rfl

/-! ## One row -/

theorem mean_eq (f : Fin 32 → BitVec 32) (g : Fin 32 → Fin 128 → EReal)
    (hpad : ∀ l d, f l = 0#32 → g l d = 0) : meanK f g = meanR f g := by
  funext k
  unfold meanK meanR
  rw [cnt_eq]
  congr 1
  refine Finset.sum_congr rfl fun l _ => ?_
  rw [keep_eq]
  split
  · next h => rw [hpad l k h, mul_zero]
  · rw [mul_one]

theorem layer1_eq (f : Fin 32 → BitVec 32) (g : Fin 32 → Fin 128 → EReal) (W : Fin 256 → Fin 256 → EReal) (s : EReal)
    (q : Fin 256) (hpad : ∀ l d, f l = 0#32 → g l d = 0) : layer1K f g W s q = layer1R f g W s q := by
  unfold layer1K layer1R
  rw [mean_eq f g hpad]

/-! ## Whole arrays -/

theorem stage1_eq (x0 : IVec Cert.ReferenceIdeal.S50000x32 32) (hg : FVec Ideal Cert.ReferenceIdeal.S50000x32x128 .f32)
    (x4 : FVec Ideal Cert.ReferenceIdeal.S256x256 .f32) (nS : FVec Ideal Cert.ReferenceIdeal.S50000 .f32)
    (hpad : ∀ (n : Fin 50000) (l : Fin 32) (d : Fin 128), x0 (ix2 n l) = 0#32 → hg (ix3 n l d) = 0) :
    stage1K x0 hg x4 nS = stage1R x0 hg x4 nS := by
  funext i
  unfold stage1K stage1R
  exact layer1_eq _ _ _ _ _ fun l d h => hpad (i 0) l d h

end Cert.RowBridge

end
-- ==== Proof.LibScatter.lean ====
import Idealize.ShloMosaic.PureOps

/-!
# A scatter read at one index

`Host.scatter` is a left fold, over the update indices in row-major order, of "replace the operand's element at
the update's result index by the body applied to it and the update". Read at ONE operand index `k` the fold is
easy whenever at most one update lands on `k`:

* no update lands on `k`: the element is the operand's;
* exactly one update `j` lands on `k`: the element is the body applied to the operand's element and update `j`.

Both are statements about a left fold of point updates over a duplicate-free list, proved once for an abstract
step function and then read off `Host.scatter`'s definition.
-/

namespace Idealize.ShloMosaic.ScatterRead

section Fold

variable {ι κ α : Type} (step : (κ → α) → ι → (κ → α)) (ρ : ι → Option κ) (g : ι → α) (f : α → α → α) (k : κ)

/-- A fold of steps none of which touches `k` leaves the element at `k` alone. -/
theorem foldl_apply_of_forall_ne (hmiss : ∀ r n, ρ n ≠ some k → step r n k = r k) :
    ∀ (L : List ι) (r : κ → α), (∀ n ∈ L, ρ n ≠ some k) → L.foldl step r k = r k
  | [], _, _ => rfl
  | a :: L, r, h => by
    rw [List.foldl_cons, foldl_apply_of_forall_ne hmiss L (step r a) fun n hn => h n (List.mem_cons_of_mem _ hn)]
    exact hmiss r a (h a List.mem_cons_self)

/-- A fold over a duplicate-free list in which exactly one step `j` touches `k` applies that step's body there. -/
theorem foldl_apply_of_unique (hmiss : ∀ r n, ρ n ≠ some k → step r n k = r k)
    (hhit : ∀ r n, ρ n = some k → step r n k = f (r k) (g n)) (j : ι) (hj : ρ j = some k) :
    ∀ (L : List ι) (r : κ → α), L.Nodup → j ∈ L → (∀ n ∈ L, ρ n = some k → n = j) →
      L.foldl step r k = f (r k) (g j)
  | [], _, _, hm, _ => absurd hm List.not_mem_nil
  | a :: L, r, hnd, hm, hu => by
    rw [List.foldl_cons]
    have hnd' := List.nodup_cons.mp hnd
    by_cases ha : a = j
    · subst ha
      rw [foldl_apply_of_forall_ne step ρ k hmiss L (step r a) fun n hn hρ => hnd'.1 (hu n (List.mem_cons_of_mem _ hn) hρ ▸ hn)]
      exact hhit r a hj
    · have hj' : j ∈ L := by
        rcases List.mem_cons.mp hm with h | h
        · exact absurd h.symm ha
        · exact h
      have hρa : ρ a ≠ some k := fun h => ha (hu a List.mem_cons_self h)
      rw [foldl_apply_of_unique hmiss hhit j hj L (step r a) hnd'.2 hj' fun n hn => hu n (List.mem_cons_of_mem _ hn),
        hmiss r a hρa]

end Fold

variable {s si u : Shape} {α : Type} {w : Nat}

/-- The two facts about one step of `Host.scatter`'s fold, read at a fixed operand index `k`. -/
private theorem step_miss (d : ScatterDims s si u) (f : α → α → α) (idx : IVec si w) (upd : u.Idx → α) (k : s.Idx)
    (r : s.Idx → α) (n : Fin u.numel) (h : d.resultIdx? (u.rowMajor.symm n) idx ≠ some k) :
    (match d.resultIdx? (u.rowMajor.symm n) idx with
      | some i => fun i' => if i' = i then f (r i) (upd (u.rowMajor.symm n)) else r i'
      | none => r) k = r k := by
  cases hρ : d.resultIdx? (u.rowMajor.symm n) idx with
  | none => rfl
  | some i =>
    have hki : k ≠ i := fun e => h (by rw [hρ, e])
    show (if k = i then _ else r k) = r k
    rw [if_neg hki]

private theorem step_hit (d : ScatterDims s si u) (f : α → α → α) (idx : IVec si w) (upd : u.Idx → α) (k : s.Idx)
    (r : s.Idx → α) (n : Fin u.numel) (h : d.resultIdx? (u.rowMajor.symm n) idx = some k) :
    (match d.resultIdx? (u.rowMajor.symm n) idx with
      | some i => fun i' => if i' = i then f (r i) (upd (u.rowMajor.symm n)) else r i'
      | none => r) k = f (r k) (upd (u.rowMajor.symm n)) := by
  rw [h]
  show (if k = k then _ else r k) = _
  rw [if_pos rfl]

/-- An operand index on which NO update lands keeps the operand's element. -/
theorem scatter_apply_of_forall_ne (d : ScatterDims s si u) (f : α → α → α) (x : s.Idx → α) (idx : IVec si w)
    (upd : u.Idx → α) (k : s.Idx) (h : ∀ j : u.Idx, d.resultIdx? j idx ≠ some k) :
    Host.scatter d f x idx upd k = x k := by
  unfold Host.scatter
  exact foldl_apply_of_forall_ne _ (fun n => d.resultIdx? (u.rowMajor.symm n) idx) k
    (fun r n hn => step_miss d f idx upd k r n hn) _ x fun n _ => h _

/-- An operand index on which EXACTLY ONE update `j` lands holds the body applied to the operand's element and that
    update. -/
theorem scatter_apply_of_unique (d : ScatterDims s si u) (f : α → α → α) (x : s.Idx → α) (idx : IVec si w)
    (upd : u.Idx → α) (k : s.Idx) (j : u.Idx) (hj : d.resultIdx? j idx = some k)
    (hu : ∀ j' : u.Idx, d.resultIdx? j' idx = some k → j' = j) :
    Host.scatter d f x idx upd k = f (x k) (upd j) := by
  unfold Host.scatter
  refine (foldl_apply_of_unique _ (fun n => d.resultIdx? (u.rowMajor.symm n) idx) (fun n => upd (u.rowMajor.symm n)) f k
    (fun r n hn => step_miss d f idx upd k r n hn) (fun r n hn => step_hit d f idx upd k r n hn) (u.rowMajor j)
    (by show d.resultIdx? (u.rowMajor.symm (u.rowMajor j)) idx = some k; rw [Equiv.symm_apply_apply]; exact hj)
    (List.finRange u.numel) x (List.nodup_finRange _) (List.mem_finRange _)
    (fun n _ hn => by rw [← hu _ hn, Equiv.apply_symm_apply])).trans ?_
  show f (x k) (upd (u.rowMajor.symm (u.rowMajor j))) = _
  rw [Equiv.symm_apply_apply]

end Idealize.ShloMosaic.ScatterRead
-- ==== Proof.LibGatherRows3.lean ====
import Idealize.ShloMosaic.Lib.ValueIdx

/-!
# A gather of rows of a table at a rank-3 array of start indices, read at an entry

What `table[idx]` of a table `[N, C]` at an integer array `idx : [R1, R2]` lowers to: a `stablehlo.gather` with
offset_dims `[2]`, collapsed_slice_dims `[0]`, start_index_map `[0]`, index_vector_dim 2 and slice sizes `[1, C]` over
the indices as `[R1, R2, 1]`. Result entry `(a, b, c)` is the table's entry `(r, c)`, where the row `r` is the start
index `idx[a, b, 0]` read as a signed integer and clamped into `[0, N − 1]`: on the table's row axis the operand
index is the clamped start (the axis is collapsed, so there is no offset), on its column axis the start is `0` (the
start index map does not name it) and the offset is the result's last coordinate.
-/

noncomputable section

namespace Idealize.ShloMosaic.GatherRows3

open Idealize.ShloMosaic Idealize.ShloMosaic.ValueIdx

variable {α : Type}

/-- Those dimension numbers for a table `[N, C]`, start indices `[R1, R2, 1]` and a result `[R1, R2, C]`; their
    conditions `wf` are decided on a program's literal shapes. -/
abbrev rows3Dims (N C R1 R2 : Nat)
    (wf : GatherDims.WF ⟨2, ![N, C]⟩ ⟨3, ![R1, R2, 1]⟩ ⟨3, ![R1, R2, C]⟩ [2] [0] [] [0] [] 2 ![1, C]) :
    GatherDims ⟨2, ![N, C]⟩ ⟨3, ![R1, R2, 1]⟩ ⟨3, ![R1, R2, C]⟩ where
  offsetDims := [2]
  collapsedSliceDims := [0]
  operandBatchingDims := []
  startIndicesBatchingDims := []
  startIndexMap := [0]
  indexVectorDim := 2
  sliceSizes := ![1, C]
  wf := wf

/-- THE GATHER READ AT `(a, b, c)`: the table at the row `idx[a, b, 0]`, read signed and clamped into `[0, N − 1]`,
    and the column `c`. -/
theorem gather_rows3_apply {N C R1 R2 w : Nat} (hN : 0 < N)
    (wf : GatherDims.WF ⟨2, ![N, C]⟩ ⟨3, ![R1, R2, 1]⟩ ⟨3, ![R1, R2, C]⟩ [2] [0] [] [0] [] 2 ![1, C])
    (x : (⟨2, ![N, C]⟩ : Shape).Idx → α) (idx : IVec ⟨3, ![R1, R2, 1]⟩ w) (a : Fin R1) (b : Fin R2) (c : Fin C) :
    Host.gather (rows3Dims N C R1 R2 wf) x idx (ix3 a b c)
      = x (ix2 ⟨min (idx (ix3 a b (0 : Fin 1))).toInt.toNat (N - 1), by omega⟩ c) := by
  unfold Host.gather
  congr 1
  funext p
  refine Fin.ext ?_
  match p with
  | ⟨0, _⟩ =>
    show (rows3Dims N C R1 R2 wf).start (ix3 a b c) idx 0 + (rows3Dims N C R1 R2 wf).batchCoord (ix3 a b c) 0
      + (rows3Dims N C R1 R2 wf).offCoord (ix3 a b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C R1 R2 wf).startIndexMap from List.mem_singleton.mpr rfl)]
    have hsi : (rows3Dims N C R1 R2 wf).siIdx (ix3 a b c) ⟨List.idxOf (0 : Fin 2) (rows3Dims N C R1 R2 wf).startIndexMap,
        List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi]
    rfl
  | ⟨1, _⟩ =>
    show (rows3Dims N C R1 R2 wf).start (ix3 a b c) idx 1 + (rows3Dims N C R1 R2 wf).batchCoord (ix3 a b c) 1
      + (rows3Dims N C R1 R2 wf).offCoord (ix3 a b c) 1 = c.val
    rw [GatherDims.batchCoord_eq_zero _ _ _ List.not_mem_nil]
    have hs : (rows3Dims N C R1 R2 wf).start (ix3 a b c) idx 1 = 0 := by
      unfold GatherDims.start
      rw [dif_neg (fun h => absurd (List.mem_singleton.mp h) (by decide : ¬ ((1 : Fin 2) = (0 : Fin 2))))]
    have ho : (rows3Dims N C R1 R2 wf).offCoord (ix3 a b c) 1 = c.val := rfl
    rw [hs, ho]; omega

end Idealize.ShloMosaic.GatherRows3

end
-- ==== Proof.PadRow.lean ====
/-
  A padding token's gathered row is zero.

  The gathered token embeddings are read off a table whose row 0 was overwritten by zeros. A token id that is the
  padding id 0 is not negative, so the wrap of negative ids leaves it alone; the gather reads the table at the row
  "the id, clamped into the table", which is row 0; and row 0 of the overwritten table is the zero vector.
-/
import proofs.«164033_j9122510536818_2_alg».proof.Proof.Spec
import proofs.«164033_j9122510536818_2_alg».proof.Proof.LibScatter
import proofs.«164033_j9122510536818_2_alg».proof.Proof.LibGatherRows3
import Idealize.ShloMosaic.Lib.ValueIdx
import Idealize.ShloMosaic.PureOps.Ideal.Laws

noncomputable section

namespace Cert.PadRow

open Idealize.ShloMosaic Idealize.ShloMosaic.ValueIdx
open Cert.ReferenceIdeal Cert.ReferenceIdeal.ReadP

/-! ## A scatter that writes one row of a table

A scatter with ONE scatter index (a vector of one component, the row), the table's row axis inserted and its column
axis the window: update entry `c` lands on the table's entry `(r, c)`, where `r` is the scatter index read as a
signed integer — inside the table when `0 ≤ r < N`. Distinct update entries land on distinct table entries, so the
table's entry `(r, c)` holds the body applied to the old entry and update entry `c`. -/

section RowSet
variable {α : Type}

/-- Those dimension numbers for a table `[N, C]`, the scatter indices `[1]` and the updates `[C]`. -/
abbrev rowSetDims (N C : Nat) (wf : ScatterDims.WF ⟨2, ![N, C]⟩ ⟨1, ![1]⟩ ⟨1, ![C]⟩ [0] [0] [0] 0) :
    ScatterDims ⟨2, ![N, C]⟩ ⟨1, ![1]⟩ ⟨1, ![C]⟩ where
  updateWindowDims := [0]
  insertedWindowDims := [0]
  scatterDimsToOperandDims := [0]
  indexVectorDim := 0
  wf := wf

/-- Update entry `j` lands on the table's entry (the row the scatter index names, column `j`). -/
theorem rowSet_resultIdx {N C w : Nat} (wf : ScatterDims.WF ⟨2, ![N, C]⟩ ⟨1, ![1]⟩ ⟨1, ![C]⟩ [0] [0] [0] 0)
    (idx : IVec ⟨1, ![1]⟩ w) (r : Fin N) (h : (idx (ix1 (0 : Fin 1))).toInt = (r.val : Int))
    (j : (⟨1, ![C]⟩ : Shape).Idx) :
    (rowSetDims N C wf).resultIdx? j idx = some (ix2 r (j 0)) := by
  have hsw : ∀ a, (rowSetDims N C wf).start j idx a + ((rowSetDims N C wf).window j a : Int)
      = (((ix2 r (j 0) : (⟨2, ![N, C]⟩ : Shape).Idx) a).val : Int) := by
    intro a
    match a with
    | ⟨0, _⟩ =>
      have hs : (rowSetDims N C wf).start j idx 0 = (r.val : Int) := by
        unfold ScatterDims.start
        rw [dif_pos (show (0 : Fin 2) ∈ (rowSetDims N C wf).scatterDimsToOperandDims from List.mem_singleton.mpr rfl)]
        have hsi : (rowSetDims N C wf).siIdx j ⟨List.idxOf (0 : Fin 2) (rowSetDims N C wf).scatterDimsToOperandDims,
            List.idxOf_lt_length_iff.2 (List.mem_singleton.mpr rfl)⟩ = ix1 (0 : Fin 1) := by
          funext q; refine Fin.ext ?_
          match q with
          | ⟨0, _⟩ => rfl
        rw [hsi]; exact h
      have hw : (rowSetDims N C wf).window j 0 = 0 := rfl
      show (rowSetDims N C wf).start j idx 0 + ((rowSetDims N C wf).window j 0 : Int) = (r.val : Int)
      rw [hs, hw]; simp
    | ⟨1, _⟩ =>
      have hs : (rowSetDims N C wf).start j idx 1 = 0 := by
        unfold ScatterDims.start
        rw [dif_neg (fun h => absurd (List.mem_singleton.mp h) (by decide : ¬ ((1 : Fin 2) = (0 : Fin 2))))]
      have hw : (rowSetDims N C wf).window j 1 = (j 0).val := rfl
      show (rowSetDims N C wf).start j idx 1 + ((rowSetDims N C wf).window j 1 : Int) = ((j 0).val : Int)
      rw [hs, hw]; simp
  have hc : ∀ a, 0 ≤ (rowSetDims N C wf).start j idx a + ((rowSetDims N C wf).window j a : Int) ∧
      (rowSetDims N C wf).start j idx a + ((rowSetDims N C wf).window j a : Int) < ((⟨2, ![N, C]⟩ : Shape).size a : Int) := by
    intro a
    rw [hsw a]
    exact ⟨Int.natCast_nonneg _, by exact_mod_cast ((ix2 r (j 0) : (⟨2, ![N, C]⟩ : Shape).Idx) a).isLt⟩
  unfold ScatterDims.resultIdx?
  rw [dif_pos hc]
  refine congrArg some ?_
  funext a; refine Fin.ext ?_
  show ((rowSetDims N C wf).start j idx a + ((rowSetDims N C wf).window j a : Int)).toNat = _
  rw [hsw a]; exact Int.toNat_natCast _

/-- THE SCATTER READ IN THE WRITTEN ROW: entry `(r, c)` holds the body applied to the old entry and update entry `c`. -/
theorem scatter_rowSet_apply {N C w : Nat} (wf : ScatterDims.WF ⟨2, ![N, C]⟩ ⟨1, ![1]⟩ ⟨1, ![C]⟩ [0] [0] [0] 0)
    (f : α → α → α) (x : (⟨2, ![N, C]⟩ : Shape).Idx → α) (idx : IVec ⟨1, ![1]⟩ w) (upd : (⟨1, ![C]⟩ : Shape).Idx → α)
    (r : Fin N) (c : Fin C) (h : (idx (ix1 (0 : Fin 1))).toInt = (r.val : Int)) :
    Host.scatter (rowSetDims N C wf) f x idx upd (ix2 r c) = f (x (ix2 r c)) (upd (ix1 c)) := by
  refine ScatterRead.scatter_apply_of_unique _ f x idx upd (ix2 r c) (ix1 c) ?_ ?_
  · exact rowSet_resultIdx wf idx r h (ix1 c)
  · intro j' hj'
    rw [rowSet_resultIdx wf idx r h] at hj'
    have hcol : j' 0 = c := congrFun (Option.some.inj hj') 1
    exact (eq_ix1 j').trans (congrArg ix1 hcol)

end RowSet

/-! ## The table's row 0, and the row a padding token reads -/

/-- Row 0 of the table after the overwrite is the zero vector. -/
theorem table_row0 (x3 : FVec Ideal S100000x128 .f32) (d : Fin 128) :
    val_main_v17 (F := Ideal) x3 (ix2 (⟨0, by decide⟩ : Fin 100000) d) = 0 := by
  have hidx : (val_main_v15 (F := Ideal) (ix1 (0 : Fin 1))).toInt = (((⟨0, by decide⟩ : Fin 100000).val : Nat) : Int) := by
    rw [val_main_v15_apply, val_main_c_apply]; rfl
  have key := scatter_rowSet_apply (N := 100000) (C := 128) (w := 32) scatter_S100000x128_S1_S128_0_0_0_0.wf
    (fun _ b => b) x3 (val_main_v15 (F := Ideal)) (val_main_v16 (F := Ideal)) ⟨0, by decide⟩ d hidx
  unfold val_main_v17
  refine key.trans ?_
  show val_main_v16 (F := Ideal) (ix1 d) = 0
  rw [val_main_v16_apply, val_main_cst_6_apply]
  exact Ideal.ofBits_zero_f32

/-- The start index a padding token gives the gather is 0: the id is not negative, so it is not wrapped. -/
theorem start_pad (x0 : IVec S50000x32 32) (n : Fin 50000) (l : Fin 32) (h : x0 (ix2 n l) = 0#32) :
    val_main_v23 (F := Ideal) x0 (ix3 n l (0 : Fin 1)) = 0#32 := by
  rw [val_main_v23_apply]
  have hi : idx_main_v23 (ix3 n l (0 : Fin 1)) = ix2 n l := by
    funext a
    match a with
    | ⟨0, _⟩ => rfl
    | ⟨1, _⟩ => rfl
  have hc : IntOp.cmpi .slt 0#32 0#32 = 0#1 := by decide
  rw [hi, val_main_v22_apply, val_main_v19_apply, val_main_v18_apply, val_main_c_7_apply, h, hc, select_zero]

/-- A padding token's gathered row is zero. -/
theorem gathered_pad (x0 : IVec S50000x32 32) (x3 : FVec Ideal S100000x128 .f32)
    (n : Fin 50000) (l : Fin 32) (d : Fin 128) (h : x0 (ix2 n l) = 0#32) :
    Cert.Spec.gathered x0 x3 (ix3 n l d) = 0 := by
  have key := GatherRows3.gather_rows3_apply (N := 100000) (C := 128) (R1 := 50000) (R2 := 32) (w := 32) (by decide)
    gather_S100000x128_S50000x32x1_S50000x32x128_2_0_n_n_0_2_1128.wf
    (val_main_v17 (F := Ideal) x3) (val_main_v23 (F := Ideal) x0) n l d
  unfold Cert.Spec.gathered val_main_v24
  refine key.trans ?_
  refine Eq.trans (congrArg (fun r : Fin 100000 => val_main_v17 (F := Ideal) x3 (ix2 r d))
    (Fin.ext ?_ : _ = (⟨0, by decide⟩ : Fin 100000))) (table_row0 x3 d)
  show min (val_main_v23 (F := Ideal) x0 (ix3 n l (0 : Fin 1))).toInt.toNat (100000 - 1) = 0
  rw [start_pad x0 n l h]; rfl

end Cert.PadRow

end
-- ==== Proof.Bridge.lean ====
/-
  The two spellings of the first stage agree on the gathered embeddings, so the two whole functions agree.

  Where a token id is the padding id 0 the gathered row is the table's row 0, which was overwritten by zeros, so the
  row contributes nothing to the plain sum and its weight 0 changes nothing; elsewhere the weight is 1.  The counts
  of non-padding tokens agree whether taken as floats or as 32-bit words.
-/
import proofs.«164033_j9122510536818_2_alg».proof.Proof.Spec
import proofs.«164033_j9122510536818_2_alg».proof.Proof.RowBridge
import proofs.«164033_j9122510536818_2_alg».proof.Proof.PadRow

noncomputable section

namespace Cert.Bridge

open Idealize.ShloMosaic Idealize.ShloMosaic.ValueIdx
open Cert.ReferenceIdeal

theorem outK_eq_outR (x0 : IVec S50000x32 32) (x1 x2 : IVec S800000 32) (x3 : FVec Ideal S100000x128 .f32)
    (x4 : FVec Ideal S256x256 .f32) (x5 : FVec Ideal S256 .f32) (x6 : FVec Ideal S256x40 .f32) (x7 : FVec Ideal S40 .f32) :
    Cert.Spec.outK x0 x1 x2 x3 x4 x5 x6 x7 = Cert.Spec.outR x0 x1 x2 x3 x4 x5 x6 x7 := by
  unfold Cert.Spec.outK Cert.Spec.outR
  rw [Cert.RowBridge.stage1_eq x0 (Cert.Spec.gathered x0 x3) x4 (Cert.Spec.norm x1)
    (fun n l d h => Cert.PadRow.gathered_pad x0 x3 n l d h)]

end Cert.Bridge

end
-- ==== Proof.lean ====
/-
  The certificate of a graph convolution network on embedded token sequences: the kernel program (three pallas_calls
  among host operations), its idealization and the idealized reference.

  * The three frames.  The kernel program's and its idealization's are the generated launch of their six segments;
    the reference is 103 host operations in a row, and its frame is its run with the result dropped.
  * The idealization rewrote no operation, so `preserves` asks nothing.
  * Over the extended reals both idealized programs end with one and the same array.  The kernel program's result is
    read boundary by boundary (`Cert.KSide.value`): it is `Spec.outK` of the arguments — the first stage with each
    gathered embedding row multiplied by its token's 0/1 weight before the sum and the weights counted as floats.  The
    reference's result is its operations' fold (`Cert.RefFold.fold_eq`), which is `Spec.outR` of the arguments
    (`Cert.RefSide.val_eq`) — the rows summed as they are, the non-padding tokens counted as 32-bit words.  The two
    agree (`Cert.Bridge.outK_eq_outR`): a padding token's gathered row is the zeroed row 0 of the table, every other
    weight is 1, and the two counts are the same number.  No finiteness of the inputs is used.
-/
import proofs.«164033_j9122510536818_2_alg».proof.Defs
import proofs.«164033_j9122510536818_2_alg».proof.Proof.Gen.Kernel
import proofs.«164033_j9122510536818_2_alg».proof.Proof.Gen.Kernel.Skeleton
import proofs.«164033_j9122510536818_2_alg».proof.Proof.Gen.Kernel.Launch
import proofs.«164033_j9122510536818_2_alg».proof.Proof.Gen.Kernel.Points
import proofs.«164033_j9122510536818_2_alg».proof.Proof.Gen.Kernel.Frame
import proofs.«164033_j9122510536818_2_alg».proof.Proof.Gen.KernelIdeal
import proofs.«164033_j9122510536818_2_alg».proof.Proof.Gen.KernelIdeal.Skeleton
import proofs.«164033_j9122510536818_2_alg».proof.Proof.Gen.KernelIdeal.Launch
import proofs.«164033_j9122510536818_2_alg».proof.Proof.Gen.KernelIdeal.Points
import proofs.«164033_j9122510536818_2_alg».proof.Proof.Gen.KernelIdeal.Frame
import proofs.«164033_j9122510536818_2_alg».proof.Proof.Gen.ReferenceIdeal
import proofs.«164033_j9122510536818_2_alg».proof.Proof.Gen.Pre_finite_inputs
import proofs.«164033_j9122510536818_2_alg».proof.Proof.KRun
import proofs.«164033_j9122510536818_2_alg».proof.Proof.KValue
import proofs.«164033_j9122510536818_2_alg».proof.Proof.RefRunP
import proofs.«164033_j9122510536818_2_alg».proof.Proof.RefFold
import proofs.«164033_j9122510536818_2_alg».proof.Proof.RefSide
import proofs.«164033_j9122510536818_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, every argument buffer read through the operations' fold back to the launch. -/
theorem frame_ri : Cert.frame_ReferenceIdeal := fun m ρ _ =>
  (θ_run Cert.ReferenceIdeal.defs _ _).mono (fun _ h c =>
    ⟨(h c _).trans (Cert.RefFold.fold_arg0 m c), (h c _).trans (Cert.RefFold.fold_arg1 m c),
     (h c _).trans (Cert.RefFold.fold_arg2 m c), (h c _).trans (Cert.RefFold.fold_arg3 m c),
     (h c _).trans (Cert.RefFold.fold_arg4 m c), (h c _).trans (Cert.RefFold.fold_arg5 m c),
     (h c _).trans (Cert.RefFold.fold_arg6 m c), (h c _).trans (Cert.RefFold.fold_arg7 m c)⟩)
    (Cert.ReferenceIdeal.ValueP.run_raw (F := Ideal) m ρ)

theorem preserves : Cert.preserves_Kernel_KernelIdeal := trivial

/-- Both idealized programs end with `Spec.outK` of the (agreeing) arguments. -/
theorem algebraic : Cert.algebraic_KernelIdeal_ReferenceIdeal := by
  intro m ρ m' ρ' _ hagree
  refine ⟨fun c => Cert.Spec.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KSide.value m ρ c), (h c).2⟩)
      (Cert.KSide.run (F := Ideal) m ρ)
  · refine (θ_run Cert.ReferenceIdeal.defs _ _).mono (fun r h c =>
      ⟨?_, (h c _).trans (Cert.RefFold.fold_arg0 m' c), (h c _).trans (Cert.RefFold.fold_arg1 m' c),
       (h c _).trans (Cert.RefFold.fold_arg2 m' c), (h c _).trans (Cert.RefFold.fold_arg3 m' c),
       (h c _).trans (Cert.RefFold.fold_arg4 m' c), (h c _).trans (Cert.RefFold.fold_arg5 m' c),
       (h c _).trans (Cert.RefFold.fold_arg6 m' c), (h c _).trans (Cert.RefFold.fold_arg7 m' c)⟩)
      (Cert.ReferenceIdeal.ValueP.run_raw (F := Ideal) m' ρ')
    refine (h c Cert.ReferenceIdeal.main_v78).trans ((Cert.RefFold.fold_eq m' c).trans ((Cert.RefSide.val_eq _ _ _ _ _ _ _ _).trans ?_))
    obtain ⟨a0, a1, a2, a3, a4, a5, a6, a7⟩ := hagree c
    rw [a0, a1, a2, a3, a4, a5, a6, a7]
    exact (Cert.Bridge.outK_eq_outR _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
